-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x49 : Shape := ⟨2, ![262144, 49]⟩
abbrev S128x128 : Shape := ⟨2, ![128, 128]⟩
abbrev S1x128 : Shape := ⟨2, ![1, 128]⟩
abbrev S_ : Shape := ⟨0, ![]⟩

class Facts : Prop where
  bcast_S_S262144x49 : S_.BroadcastsInDim S262144x49 (![] : Fin 0 → Fin S262144x49.rank)
  reducesTo_S262144x49_S_d0_1 : S262144x49.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_arg4 : FVec F S1x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S1x128 .f32 := Host.absf main_arg4
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  main_v23

def fn {F : FTy → Type} [FloatOps F] (main_arg0 : FVec F S262144x49 .f32) (main_arg1 : FVec F S128x128 .f32) (main_arg2 : FVec F S1x128 .f32) (main_arg3 : FVec F S128x128 .f32) (main_arg4 : FVec F S1x128 .f32) : IVec S_ 1 :=
  let main_v0 : FVec F S262144x49 .f32 := Host.absf main_arg0
  let main_cst : FVec F S_ .f32 := constant S_ .f32 0x7F800000#32
  let main_v1 : FVec F S262144x49 .f32 := broadcastInDim S262144x49 ![] bcast_S_S262144x49 main_cst
  let main_v2 : IVec S262144x49 1 := cmpf .olt main_v0 main_v1
  let main_c : IVec S_ 1 := constantI S_ 1 1#1
  let main_v3 : IVec S_ 1 := (fun x v => Host.reduce IntOp.andi x v reducesTo_S262144x49_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S1x128 .f32 := Host.absf main_arg2
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S262144x49 : Shape := ⟨2, ![262144, 49]⟩
abbrev S128x128 : Shape := ⟨2, ![128, 128]⟩
abbrev S1x128 : Shape := ⟨2, ![1, 128]⟩
abbrev S49x128 : Shape := ⟨2, ![49, 128]⟩
abbrev S128x100 : Shape := ⟨2, ![128, 100]⟩
abbrev S1x100 : Shape := ⟨2, ![1, 100]⟩
abbrev S8x8 : Shape := ⟨2, ![8, 8]⟩
abbrev S_ : Shape := ⟨0, ![]⟩
abbrev S8x1x8x1 : Shape := ⟨4, ![8, 1, 8, 1]⟩
abbrev S1x49x1x128 : Shape := ⟨4, ![1, 49, 1, 128]⟩
abbrev S8x49x8x128 : Shape := ⟨4, ![8, 49, 8, 128]⟩
abbrev S392x1024 : Shape := ⟨2, ![392, 1024]⟩
abbrev S2x2 : Shape := ⟨2, ![2, 2]⟩
abbrev S2x1x2x1 : Shape := ⟨4, ![2, 1, 2, 1]⟩
abbrev S1x128x1x100 : Shape := ⟨4, ![1, 128, 1, 100]⟩
abbrev S2x128x2x100 : Shape := ⟨4, ![2, 128, 2, 100]⟩
abbrev S256x200 : Shape := ⟨2, ![256, 200]⟩
abbrev S1x1x1x128 : Shape := ⟨4, ![1, 1, 1, 128]⟩
abbrev S1x1x8x128 : Shape := ⟨4, ![1, 1, 8, 128]⟩
abbrev S1x1024 : Shape := ⟨2, ![1, 1024]⟩
abbrev S1x1x1x100 : Shape := ⟨4, ![1, 1, 1, 100]⟩
abbrev S1x1x2x100 : Shape := ⟨4, ![1, 1, 2, 100]⟩
abbrev S1x200 : Shape := ⟨2, ![1, 200]⟩
abbrev S32768x392 : Shape := ⟨2, ![32768, 392]⟩
abbrev S131072x200 : Shape := ⟨2, ![131072, 200]⟩
abbrev S262144x100 : Shape := ⟨2, ![262144, 100]⟩
abbrev S256x392 : Shape := ⟨2, ![256, 392]⟩
abbrev S1024x200 : Shape := ⟨2, ![1024, 200]⟩
abbrev S256x1024 : Shape := ⟨2, ![256, 1024]⟩
abbrev S1024x256 : Shape := ⟨2, ![1024, 256]⟩

abbrev nBuf : Space → Nat
  | .hbm => 45
  | .vmem => 8
  | .smem => 0
  | _ => 0

abbrev bufTy : (tb : Table) → Fin (tcTables nBuf tb) → BufTy
  | .hbm, ⟨0, _⟩ => ⟨S262144x49, .f32⟩
  | .hbm, ⟨1, _⟩ => ⟨S128x128, .f32⟩
  | .hbm, ⟨2, _⟩ => ⟨S1x128, .f32⟩
  | .hbm, ⟨3, _⟩ => ⟨S128x128, .f32⟩
  | .hbm, ⟨4, _⟩ => ⟨S1x128, .f32⟩
  | .hbm, ⟨5, _⟩ => ⟨S49x128, .f32⟩
  | .hbm, ⟨6, _⟩ => ⟨S128x100, .f32⟩
  | .hbm, ⟨7, _⟩ => ⟨S1x100, .f32⟩
  | .hbm, ⟨8, _⟩ => ⟨S8x8, .i32⟩
  | .hbm, ⟨9, _⟩ => ⟨S8x8, .i32⟩
  | .hbm, ⟨10, _⟩ => ⟨S_, .i32⟩
  | .hbm, ⟨11, _⟩ => ⟨S8x8, .i32⟩
  | .hbm, ⟨12, _⟩ => ⟨S8x8, .i32⟩
  | .hbm, ⟨13, _⟩ => ⟨S8x8, .i1⟩
  | .hbm, ⟨14, _⟩ => ⟨S8x8, .f32⟩
  | .hbm, ⟨15, _⟩ => ⟨S8x1x8x1, .f32⟩
  | .hbm, ⟨16, _⟩ => ⟨S1x49x1x128, .f32⟩
  | .hbm, ⟨17, _⟩ => ⟨S8x49x8x128, .f32⟩
  | .hbm, ⟨18, _⟩ => ⟨S8x49x8x128, .f32⟩
  | .hbm, ⟨19, _⟩ => ⟨S8x49x8x128, .f32⟩
  | .hbm, ⟨20, _⟩ => ⟨S392x1024, .f32⟩
  | .hbm, ⟨21, _⟩ => ⟨S2x2, .i32⟩
  | .hbm, ⟨22, _⟩ => ⟨S2x2, .i32⟩
  | .hbm, ⟨23, _⟩ => ⟨S_, .i32⟩
  | .hbm, ⟨24, _⟩ => ⟨S2x2, .i32⟩
  | .hbm, ⟨25, _⟩ => ⟨S2x2, .i32⟩
  | .hbm, ⟨26, _⟩ => ⟨S2x2, .i1⟩
  | .hbm, ⟨27, _⟩ => ⟨S2x2, .f32⟩
  | .hbm, ⟨28, _⟩ => ⟨S2x1x2x1, .f32⟩
  | .hbm, ⟨29, _⟩ => ⟨S1x128x1x100, .f32⟩
  | .hbm, ⟨30, _⟩ => ⟨S2x128x2x100, .f32⟩
  | .hbm, ⟨31, _⟩ => ⟨S2x128x2x100, .f32⟩
  | .hbm, ⟨32, _⟩ => ⟨S2x128x2x100, .f32⟩
  | .hbm, ⟨33, _⟩ => ⟨S256x200, .f32⟩
  | .hbm, ⟨34, _⟩ => ⟨S1x1x1x128, .f32⟩
  | .hbm, ⟨35, _⟩ => ⟨S1x1x8x128, .f32⟩
  | .hbm, ⟨36, _⟩ => ⟨S1x1024, .f32⟩
  | .hbm, ⟨37, _⟩ => ⟨S1x1x1x100, .f32⟩
  | .hbm, ⟨38, _⟩ => ⟨S1x1x2x100, .f32⟩
  | .hbm, ⟨39, _⟩ => ⟨S1x200, .f32⟩
  | .hbm, ⟨40, _⟩ => ⟨S32768x392, .f32⟩
  | .hbm, ⟨41, _⟩ => ⟨S392x1024, .bf16⟩
  | .hbm, ⟨42, _⟩ => ⟨S256x200, .bf16⟩
  | .hbm, ⟨43, _⟩ => ⟨S131072x200, .f32⟩
  | .hbm, ⟨44, _⟩ => ⟨S262144x100, .f32⟩
  | .local _ .vmem, ⟨0, _⟩ => ⟨S256x392, .f32⟩
  | .local _ .vmem, ⟨1, _⟩ => ⟨S256x392, .f32⟩
  | .local _ .vmem, ⟨2, _⟩ => ⟨S392x1024, .bf16⟩
  | .local _ .vmem, ⟨3, _⟩ => ⟨S1x1024, .f32⟩
  | .local _ .vmem, ⟨4, _⟩ => ⟨S256x200, .bf16⟩
  | .local _ .vmem, ⟨5, _⟩ => ⟨S1x200, .f32⟩
  | .local _ .vmem, ⟨6, _⟩ => ⟨S1024x200, .f32⟩
  | .local _ .vmem, ⟨7, _⟩ => ⟨S1024x200, .f32⟩
  | _, _ => ⟨S262144x49, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_c : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_call0_v0 : Ref sig .tc := ⟨.hbm, 15, rfl⟩
abbrev main_call0_call0_v1 : Ref sig .tc := ⟨.hbm, 16, rfl⟩
abbrev main_call0_call0_v2 : Ref sig .tc := ⟨.hbm, 17, rfl⟩
abbrev main_call0_call0_v3 : Ref sig .tc := ⟨.hbm, 18, rfl⟩
abbrev main_call0_call0_v4 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_v15 : Ref sig .tc := ⟨.hbm, 27, rfl⟩
abbrev main_call0_call1_v0 : Ref sig .tc := ⟨.hbm, 28, rfl⟩
abbrev main_call0_call1_v1 : Ref sig .tc := ⟨.hbm, 29, rfl⟩
abbrev main_call0_call1_v2 : Ref sig .tc := ⟨.hbm, 30, rfl⟩
abbrev main_call0_call1_v3 : Ref sig .tc := ⟨.hbm, 31, rfl⟩
abbrev main_call0_call1_v4 : Ref sig .tc := ⟨.hbm, 32, rfl⟩
abbrev main_call0_v16 : Ref sig .tc := ⟨.hbm, 33, rfl⟩
abbrev main_call0_v17 : Ref sig .tc := ⟨.hbm, 34, rfl⟩
abbrev main_call0_v18 : Ref sig .tc := ⟨.hbm, 35, rfl⟩
abbrev main_call0_v19 : Ref sig .tc := ⟨.hbm, 36, rfl⟩
abbrev main_call0_v20 : Ref sig .tc := ⟨.hbm, 37, rfl⟩
abbrev main_call0_v21 : Ref sig .tc := ⟨.hbm, 38, rfl⟩
abbrev main_call0_v22 : Ref sig .tc := ⟨.hbm, 39, rfl⟩
abbrev main_call0_v23 : Ref sig .tc := ⟨.hbm, 40, rfl⟩
abbrev main_call0_v24 : Ref sig .tc := ⟨.hbm, 41, rfl⟩
abbrev main_call0_v25 : Ref sig .tc := ⟨.hbm, 42, rfl⟩
abbrev main_call0_v26 : Ref sig .tc := ⟨.hbm, 43, rfl⟩
abbrev main_v0 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x392 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S392x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x200 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x200 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x200 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S128x128_S49x128_0_0 : S128x128.Slices ![0, 0] S49x128
  slices_S128x128_S128x100_0_0 : S128x128.Slices ![0, 0] S128x100
  slices_S1x128_S1x100_0_0 : S1x128.Slices ![0, 0] S1x100
  bcast_S_S8x8 : S_.BroadcastsInDim S8x8 (![] : Fin 0 → Fin S8x8.rank)
  bcast_S8x8_S8x1x8x1_0_2 : S8x8.BroadcastsInDim S8x1x8x1 (![0, 2] : Fin 2 → Fin S8x1x8x1.rank)
  bcast_S49x128_S1x49x1x128_1_3 : S49x128.BroadcastsInDim S1x49x1x128 (![1, 3] : Fin 2 → Fin S1x49x1x128.rank)
  bcast_S8x1x8x1_S8x49x8x128_0_1_2_3 : S8x1x8x1.BroadcastsInDim S8x49x8x128 (![0, 1, 2, 3] : Fin 4 → Fin S8x49x8x128.rank)
  bcast_S1x49x1x128_S8x49x8x128_0_1_2_3 : S1x49x1x128.BroadcastsInDim S8x49x8x128 (![0, 1, 2, 3] : Fin 4 → Fin S8x49x8x128.rank)
  shapeCasts_S8x49x8x128_S392x1024 : S8x49x8x128.ShapeCasts S392x1024
  bcast_S_S2x2 : S_.BroadcastsInDim S2x2 (![] : Fin 0 → Fin S2x2.rank)
  bcast_S2x2_S2x1x2x1_0_2 : S2x2.BroadcastsInDim S2x1x2x1 (![0, 2] : Fin 2 → Fin S2x1x2x1.rank)
  bcast_S128x100_S1x128x1x100_1_3 : S128x100.BroadcastsInDim S1x128x1x100 (![1, 3] : Fin 2 → Fin S1x128x1x100.rank)
  bcast_S2x1x2x1_S2x128x2x100_0_1_2_3 : S2x1x2x1.BroadcastsInDim S2x128x2x100 (![0, 1, 2, 3] : Fin 4 → Fin S2x128x2x100.rank)
  bcast_S1x128x1x100_S2x128x2x100_0_1_2_3 : S1x128x1x100.BroadcastsInDim S2x128x2x100 (![0, 1, 2, 3] : Fin 4 → Fin S2x128x2x100.rank)
  shapeCasts_S2x128x2x100_S256x200 : S2x128x2x100.ShapeCasts S256x200
  shapeCasts_S1x128_S1x1x1x128 : S1x128.ShapeCasts S1x1x1x128
  bcast_S1x1x1x128_S1x1x8x128_0_1_2_3 : S1x1x1x128.BroadcastsInDim S1x1x8x128 (![0, 1, 2, 3] : Fin 4 → Fin S1x1x8x128.rank)
  shapeCasts_S1x1x8x128_S1x1024 : S1x1x8x128.ShapeCasts S1x1024
  shapeCasts_S1x100_S1x1x1x100 : S1x100.ShapeCasts S1x1x1x100
  bcast_S1x1x1x100_S1x1x2x100_0_1_2_3 : S1x1x1x100.BroadcastsInDim S1x1x2x100 (![0, 1, 2, 3] : Fin 4 → Fin S1x1x2x100.rank)
  shapeCasts_S1x1x2x100_S1x200 : S1x1x2x100.ShapeCasts S1x200
  shapeCasts_S262144x49_S32768x392 : S262144x49.ShapeCasts S32768x392
  bitsLt_bf16_f32 : FTy.bits .bf16 < FTy.bits .f32
  shapeCasts_S131072x200_S262144x100 : S131072x200.ShapeCasts S262144x100
  inb_S256x392_S256x392_0_0 : ∀ a, (![0, 0] : Fin 2 → Nat) a + S256x392.size a ≤ S256x392.size a
  h_S256x392 : 0 < S256x392.numel
  shapeCasts_S256x392_S256x392 : S256x392.ShapeCasts S256x392
  inb_S392x1024_S392x1024_0_0 : ∀ a, (![0, 0] : Fin 2 → Nat) a + S392x1024.size a ≤ S392x1024.size a
  h_S392x1024 : 0 < S392x1024.numel
  shapeCasts_S392x1024_S392x1024 : S392x1024.ShapeCasts S392x1024
  inb_S1x1024_S1x1024_0_0 : ∀ a, (![0, 0] : Fin 2 → Nat) a + S1x1024.size a ≤ S1x1024.size a
  h_S1x1024 : 0 < S1x1024.numel
  broadcasts_S1x1024_S256x1024 : S1x1024.Broadcasts S256x1024
  shapeCasts_S256x1024_S1024x256 : S256x1024.ShapeCasts S1024x256
  inb_S256x200_S256x200_0_0 : ∀ a, (![0, 0] : Fin 2 → Nat) a + S256x200.size a ≤ S256x200.size a
  h_S256x200 : 0 < S256x200.numel
  shapeCasts_S256x200_S256x200 : S256x200.ShapeCasts S256x200
  inb_S1x200_S1x200_0_0 : ∀ a, (![0, 0] : Fin 2 → Nat) a + S1x200.size a ≤ S1x200.size a
  h_S1x200 : 0 < S1x200.numel
  shapeCasts_S1x200_S1x200 : S1x200.ShapeCasts S1x200
  broadcasts_S1x200_S1024x200 : S1x200.Broadcasts S1024x200
  inb_S1024x200_S1024x200_0_0 : ∀ a, (![0, 0] : Fin 2 → Nat) a + S1024x200.size a ≤ S1024x200.size a
  h_S1024x200 : 0 < S1024x200.numel
  dot_S256x392_S392x1024_S256x1024_1_0_0_1_n_n_wf : DotDims.WF S256x392 S392x1024 S256x1024 [1] [0] [0] [1] [] []
  dot_S1024x256_S256x200_S1024x200_1_0_0_1_n_n_wf : DotDims.WF S1024x256 S256x200 S1024x200 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x392.size a ≤ S32768x392.size a
  hwx0_0 : ∀ i : grid0.Coords, EltTy.bits .f32 = 32 ∨ (Rect.block (s := S32768x392) S256x392.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S392x1024.size a ≤ S392x1024.size a
  hwx0_1 : ∀ i : grid0.Coords, EltTy.bits .bf16 = 32 ∨ (Rect.block (s := S392x1024) S392x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x200.size a ≤ S256x200.size a
  hwx0_3 : ∀ i : grid0.Coords, EltTy.bits .bf16 = 32 ∨ (Rect.block (s := S256x200) S256x200.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x200.size a ≤ S1x200.size a
  hwx0_4 : ∀ i : grid0.Coords, EltTy.bits .f32 = 32 ∨ (Rect.block (s := S1x200) S1x200.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x200.size a ≤ S131072x200.size a
  hwx0_5 : ∀ i : grid0.Coords, EltTy.bits .f32 = 32 ∨ (Rect.block (s := S131072x200) S1024x200.size (cc0_transform_5 i) (hinb0_5 i)).WholeWords (EltTy.packing .f32)

variable [Facts₀]

def dot_S256x392_S392x1024_S256x1024_1_0_0_1_n_n : DotDims S256x392 S392x1024 S256x1024 where
  lhsContracting := [1]
  rhsContracting := [0]
  lhsNonContracting := [0]
  rhsNonContracting := [1]
  lhsBatch := []
  rhsBatch := []
  wf := dot_S256x392_S392x1024_S256x1024_1_0_0_1_n_n_wf
def dot_S1024x256_S256x200_S1024x200_1_0_0_1_n_n : DotDims S1024x256 S256x200 S1024x200 where
  lhsContracting := [1]
  rhsContracting := [0]
  lhsNonContracting := [0]
  rhsNonContracting := [1]
  lhsBatch := []
  rhsBatch := []
  wf := dot_S1024x256_S256x200_S1024x200_1_0_0_1_n_n_wf

abbrev win0_0 : Pipeline.Window sig grid0 :=
  Pipeline.Window.ofSpec (Memref.whole main_call0_v23) S256x392.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v24) S392x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v19) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v25) S256x200.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v22) S1x200.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v26) S1024x200.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S262144x49 : Shape := ⟨2, ![262144, 49]⟩
abbrev S128x128 : Shape := ⟨2, ![128, 128]⟩
abbrev S1x128 : Shape := ⟨2, ![1, 128]⟩
abbrev S_ : Shape := ⟨0, ![]⟩
abbrev S262144x128 : Shape := ⟨2, ![262144, 128]⟩
abbrev S262144x100 : Shape := ⟨2, ![262144, 100]⟩
abbrev S256x128 : Shape := ⟨2, ![256, 128]⟩

abbrev nBuf : Space → Nat
  | .hbm => 10
  | .vmem => 8
  | .smem => 0
  | _ => 0

abbrev bufTy : (tb : Table) → Fin (tcTables nBuf tb) → BufTy
  | .hbm, ⟨0, _⟩ => ⟨S262144x49, .f32⟩
  | .hbm, ⟨1, _⟩ => ⟨S128x128, .f32⟩
  | .hbm, ⟨2, _⟩ => ⟨S1x128, .f32⟩
  | .hbm, ⟨3, _⟩ => ⟨S128x128, .f32⟩
  | .hbm, ⟨4, _⟩ => ⟨S1x128, .f32⟩
  | .hbm, ⟨5, _⟩ => ⟨S_, .i32⟩
  | .hbm, ⟨6, _⟩ => ⟨S_, .f32⟩
  | .hbm, ⟨7, _⟩ => ⟨S262144x128, .f32⟩
  | .hbm, ⟨8, _⟩ => ⟨S262144x128, .f32⟩
  | .hbm, ⟨9, _⟩ => ⟨S262144x100, .f32⟩
  | .local _ .vmem, ⟨0, _⟩ => ⟨S256x128, .f32⟩
  | .local _ .vmem, ⟨1, _⟩ => ⟨S256x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S256x128, .f32⟩
  | .local _ .vmem, ⟨7, _⟩ => ⟨S256x128, .f32⟩
  | _, _ => ⟨S262144x49, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_call0_v0 : Ref sig .tc := ⟨.hbm, 6, rfl⟩
abbrev main_call0_v0 : Ref sig .tc := ⟨.hbm, 7, rfl⟩
abbrev main_call0_v1 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  pads_S262144x49_S262144x128_000_0790 : S262144x49.Pads (![0, 0] : Fin 2 → Nat) ![0, 79] ![0, 0] S262144x128
  h_S_ : 0 < S_.numel
  slices_S262144x128_S262144x100_0_0 : S262144x128.Slices ![0, 0] S262144x100
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  broadcasts_S1x128_S256x128 : S1x128.Broadcasts S256x128
  dot_S256x128_S128x128_S256x128_1_0_0_1_n_n_wf : DotDims.WF S256x128 S128x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S262144x128.size a
  hwx0_0 : ∀ i : grid0.Coords, EltTy.bits .f32 = 32 ∨ (Rect.block (s := S262144x128) S256x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S262144x128.size a
  hwx0_5 : ∀ i : grid0.Coords, EltTy.bits .f32 = 32 ∨ (Rect.block (s := S262144x128) S256x128.size (cc0_transform_5 i) (hinb0_5 i)).WholeWords (EltTy.packing .f32)

variable [Facts₀]

def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf

abbrev win0_0 : Pipeline.Window sig grid0 :=
  Pipeline.Window.ofSpec (Memref.whole main_call0_v0) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v1) S256x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.LibDotAt.lean ====
/-
  A matrix product read at one entry.

  For dimension numbers that contract the second axis of an M × K left operand with the first axis of a K × N right
  operand, with no batch axis, both the vector unit's matmul into a zero accumulator and the host's dot_general are, at
  the ideal values and at the output entry (p, q), the plain sum  Σ_{k < K} l[p,k] · r[k,q].  The four hypotheses say
  where the dimension numbers send an output index and a contraction index; for a printed record each is one line
  (unfold the operand index and decide which axes are batch, kept or contracted). Any extents.
-/
import Idealize.ShloMosaic.PureOps.Ideal.Laws
import Idealize.ShloMosaic.Lib.ValueIdx

noncomputable section

open scoped BigOperators

namespace Cert.LibDotAt

open Idealize.ShloMosaic Idealize.ShloMosaic.ValueIdx

variable {M K N : Nat} {φ₁ φ₂ : FTy}

/-- The operand indices of a plain M×K by K×N product, once the contraction index is the coordinate `k`. -/
theorem operand_idx (D : DotDims ⟨2, ![M, K]⟩ ⟨2, ![K, N]⟩ ⟨2, ![M, N]⟩) (hr : D.contr.rank = 1)
    (hs : D.contr.size ⟨0, by omega⟩ = K)
    (hl0 : ∀ (j : (⟨2, ![M, N]⟩ : Shape).Idx) (c : D.contr.Idx), (D.lhsIdx j c 0).val = (j 0).val)
    (hl1 : ∀ (j : (⟨2, ![M, N]⟩ : Shape).Idx) (c : D.contr.Idx), (D.lhsIdx j c 1).val = (c ⟨0, by omega⟩).val)
    (hr0 : ∀ (j : (⟨2, ![M, N]⟩ : Shape).Idx) (c : D.contr.Idx), (D.rhsIdx j c 0).val = (c ⟨0, by omega⟩).val)
    (hr1 : ∀ (j : (⟨2, ![M, N]⟩ : Shape).Idx) (c : D.contr.Idx), (D.rhsIdx j c 1).val = (j 1).val)
    (p : Fin M) (q : Fin N) (k : Fin K) :
    D.lhsIdx (ix2 p q) ((contrEquiv1 D K hr hs).symm k) = ix2 p k
      ∧ D.rhsIdx (ix2 p q) ((contrEquiv1 D K hr hs).symm k) = ix2 k q := by
  have hk := contrEquiv1_symm_val D K hr hs k
  constructor
  · funext a; apply Fin.ext
    match a with
    | ⟨0, _⟩ => exact hl0 _ _
    | ⟨1, _⟩ => exact (hl1 _ _).trans hk
  · funext a; apply Fin.ext
    match a with
    | ⟨0, _⟩ => exact (hr0 _ _).trans hk
    | ⟨1, _⟩ => exact hr1 _ _

/-- The vector unit's matmul into the zero accumulator, at entry (p, q). -/
theorem matmul_zero_ix2 (D : DotDims ⟨2, ![M, K]⟩ ⟨2, ![K, N]⟩ ⟨2, ![M, N]⟩) (hr : D.contr.rank = 1)
    (hs : D.contr.size ⟨0, by omega⟩ = K)
    (hl0 : ∀ (j : (⟨2, ![M, N]⟩ : Shape).Idx) (c : D.contr.Idx), (D.lhsIdx j c 0).val = (j 0).val)
    (hl1 : ∀ (j : (⟨2, ![M, N]⟩ : Shape).Idx) (c : D.contr.Idx), (D.lhsIdx j c 1).val = (c ⟨0, by omega⟩).val)
    (hr0 : ∀ (j : (⟨2, ![M, N]⟩ : Shape).Idx) (c : D.contr.Idx), (D.rhsIdx j c 0).val = (c ⟨0, by omega⟩).val)
    (hr1 : ∀ (j : (⟨2, ![M, N]⟩ : Shape).Idx) (c : D.contr.Idx), (D.rhsIdx j c 1).val = (j 1).val)
    (prec : Option ContractPrecision) (l : FVec Ideal ⟨2, ![M, K]⟩ φ₁) (r : FVec Ideal ⟨2, ![K, N]⟩ φ₂)
    (p : Fin M) (q : Fin N) :
    FloatOps.matmul D prec l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  obtain ⟨el, er⟩ := operand_idx D hr hs hl0 hl1 hr0 hr1 p q k
  rw [el, er]

/-- The host's dot_general, at entry (p, q): the same sum, whatever the schedule. -/
theorem dotGeneral_ix2 (D : DotDims ⟨2, ![M, K]⟩ ⟨2, ![K, N]⟩ ⟨2, ![M, N]⟩) (hr : D.contr.rank = 1)
    (hs : D.contr.size ⟨0, by omega⟩ = K)
    (hl0 : ∀ (j : (⟨2, ![M, N]⟩ : Shape).Idx) (c : D.contr.Idx), (D.lhsIdx j c 0).val = (j 0).val)
    (hl1 : ∀ (j : (⟨2, ![M, N]⟩ : Shape).Idx) (c : D.contr.Idx), (D.lhsIdx j c 1).val = (c ⟨0, by omega⟩).val)
    (hr0 : ∀ (j : (⟨2, ![M, N]⟩ : Shape).Idx) (c : D.contr.Idx), (D.rhsIdx j c 0).val = (c ⟨0, by omega⟩).val)
    (hr1 : ∀ (j : (⟨2, ![M, N]⟩ : Shape).Idx) (c : D.contr.Idx), (D.rhsIdx j c 1).val = (j 1).val)
    (prec : Option ContractPrecision) (sched : HostSchedule) (l : FVec Ideal ⟨2, ![M, K]⟩ φ₁) (r : FVec Ideal ⟨2, ![K, N]⟩ φ₂)
    (p : Fin M) (q : Fin N) :
    FloatOps.dotGeneral D prec sched l r (ix2 p q) = ∑ k : Fin K, l (ix2 p k) * r (ix2 k q) := by
  rw [Ideal.dotGeneral_apply, ← Equiv.sum_comp (contrEquiv1 D K hr hs).symm]
  refine Finset.sum_congr rfl fun k _ => ?_
  obtain ⟨el, er⟩ := operand_idx D hr hs hl0 hl1 hr0 hr1 p q k
  rw [el, er]

end Cert.LibDotAt

end
-- ==== Proof.KernelBody.lean ====
/-
  The packed kernel's stored value, read at one entry.

  The body loads a 256 × 392 block xp of the packed input, the 392 × 1024 and 256 × 200 block-diagonal weight arrays
  and the 1 × 1024 and 1 × 200 tiled bias rows. It forms h = max (xp · W1p + b1p) 0 as a 256 × 1024 array, regroups it
  row-major into 1024 × 256 — entry (r, c) of the regrouped array is entry (ρ, col) of h whenever
  ρ · 1024 + col = r · 256 + c — and stores, at entry (r, d),

      Σ_{c < 256} max (Σ_{k < 392} xp[ρ,k] · W1p[k, col c] + b1p[0, col c]) 0 · W2p[c,d] + b2p[0,d].
-/
import proofs.«180049_g2000200537359479_pallasbulk_177_3_alg».proof.Proof.Gen.KernelIdeal.Skeleton
import proofs.«180049_g2000200537359479_pallasbulk_177_3_alg».proof.Proof.LibDotAt
import Idealize.ShloMosaic.Lib.Pipeline.Value
import Idealize.ShloMosaic.Lib.ValueIdx
import Idealize.ShloMosaic.PureOps.Ideal.Laws

noncomputable section

open scoped BigOperators

namespace Cert.KernelBody

open Idealize.ShloMosaic Idealize.ShloMosaic.ValueIdx
open Cert.KernelIdeal Cert.KernelIdeal.Gen

/-- The first product: a 256 × 392 operand against a 392 × 1024 one. -/
theorem dot1_at (l : FVec Ideal S256x392 .bf16) (r : FVec Ideal S392x1024 .bf16) (p : Fin 256) (q : Fin 1024) :
    matmul dot_S256x392_S392x1024_S256x1024_1_0_0_1_n_n none l r (constant (F := Ideal) S256x1024 .f32 0x00000000#32) (ix2 p q)
      = ∑ k : Fin 392, l (ix2 p k) * r (ix2 k q) :=
  Cert.LibDotAt.matmul_zero_ix2 dot_S256x392_S392x1024_S256x1024_1_0_0_1_n_n rfl rfl
    (fun j c => by simp [DotDims.lhsIdx, dot_S256x392_S392x1024_S256x1024_1_0_0_1_n_n]; rfl)
    (fun j c => DotDims.lhsIdx_val_of_single _ rfl j c)
    (fun j c => DotDims.rhsIdx_val_of_single _ rfl j c)
    (fun j c => by simp [DotDims.rhsIdx, dot_S256x392_S392x1024_S256x1024_1_0_0_1_n_n]; rfl)
    none l r p q

/-- The second product: a 1024 × 256 operand against a 256 × 200 one. -/
theorem dot2_at (l : FVec Ideal S1024x256 .bf16) (r : FVec Ideal S256x200 .bf16) (p : Fin 1024) (q : Fin 200) :
    matmul dot_S1024x256_S256x200_S1024x200_1_0_0_1_n_n none l r (constant (F := Ideal) S1024x200 .f32 0x00000000#32) (ix2 p q)
      = ∑ k : Fin 256, l (ix2 p k) * r (ix2 k q) :=
  Cert.LibDotAt.matmul_zero_ix2 dot_S1024x256_S256x200_S1024x200_1_0_0_1_n_n rfl rfl
    (fun j c => by simp [DotDims.lhsIdx, dot_S1024x256_S256x200_S1024x200_1_0_0_1_n_n]; rfl)
    (fun j c => DotDims.lhsIdx_val_of_single _ rfl j c)
    (fun j c => DotDims.rhsIdx_val_of_single _ rfl j c)
    (fun j c => by simp [DotDims.rhsIdx, dot_S1024x256_S256x200_S1024x200_1_0_0_1_n_n]; rfl)
    none l r p q

/-- A bias row broadcast down the rows reads its own column. -/
theorem bias1_at (v : FVec Ideal S1x1024 .f32) (p : Fin 256) (q : Fin 1024) :
    broadcastTo S256x1024 v broadcasts_S1x1024_S256x1024 (ix2 p q) = v (ix2 0 q) :=
  broadcastTo_apply v broadcasts_S1x1024_S256x1024 (ix2 p q) (ix2 0 q) fun a => by
    match a with
    | ⟨0, _⟩ => rfl
    | ⟨1, _⟩ => rfl

theorem bias2_at (v : FVec Ideal S1x200 .f32) (p : Fin 1024) (q : Fin 200) :
    broadcastTo S1024x200 v broadcasts_S1x200_S1024x200 (ix2 p q) = v (ix2 0 q) :=
  broadcastTo_apply v broadcasts_S1x200_S1024x200 (ix2 p q) (ix2 0 q) fun a => by
    match a with
    | ⟨0, _⟩ => rfl
    | ⟨1, _⟩ => rfl

/-- The row-major regrouping of 256 × 1024 into 1024 × 256 keeps the row-major position. -/
theorem regroup_at (v : FVec Ideal S256x1024 .f32) (r : Fin 1024) (cc : Fin 256) (ρ : Fin 256) (col : Fin 1024)
    (h : ρ.val * 1024 + col.val = r.val * 256 + cc.val) :
    shapeCast S1024x256 v shapeCasts_S256x1024_S1024x256 (ix2 r cc) = v (ix2 ρ col) :=
  shapeCast_apply v shapeCasts_S256x1024_S1024x256 (ix2 r cc) (ix2 ρ col) (by
    rw [Shape.rowMajor_val_two, Shape.rowMajor_val_two]; exact h)

theorem pay_apply (x0 : Vec Ideal S256x392 .f32) (x3 : Vec Ideal S392x1024 .bf16) (x6 : Vec Ideal S1x1024 .f32)
    (x13 : Vec Ideal S256x200 .bf16) (x16 : Vec Ideal S1x200 .f32) (r : Fin 1024) (d : Fin 200) (ρ : Fin 256)
    (col : Fin 256 → Fin 1024) (hcol : ∀ cc : Fin 256, ρ.val * 1024 + (col cc).val = r.val * 256 + cc.val) :
    k0_pay1 x0 x3 x6 x13 x16 (ix2 r d)
      = (∑ cc : Fin 256, max ((∑ k : Fin 392, x0 (ix2 ρ k) * x3 (ix2 k (col cc))) + x6 (ix2 0 (col cc))) 0 * x13 (ix2 cc d))
        + x16 (ix2 0 d) := by
  unfold k0_pay1
  simp only [shapeCast_self]
  refine (addf_apply _ _ _).trans ?_
  rw [bias2_at, dot2_at]
  refine congrArg (· + x16 (ix2 0 d)) (Finset.sum_congr rfl fun cc _ => ?_)
  refine congrArg (· * x13 (ix2 cc d)) ?_
  refine (truncf_apply (ψ := .bf16) _ bitsLt_bf16_f32 _).trans ?_
  rw [regroup_at _ r cc ρ (col cc) (hcol cc)]
  refine (maximumf_apply _ _ _).trans ?_
  rw [addf_apply, bias1_at, dot1_at]
  show max _ (Ideal.ofBits .f32 0x00000000#32) = _
  rw [Ideal.ofBits_zero_f32]
  rfl

end Cert.KernelBody

end
-- ==== Proof.KernelValue.lean ====
/-
  What the packed kernel leaves in its output array, as one function of the five arrays its windows stage.

  On a grid of 128 points the kernel reads rows 256·t … of the packed input (32768 × 392) and the whole of the four
  parameter arrays, and writes rows 1024·t … of a 131072 × 200 array. Output row R is regrouped from packed row
  R / 4, columns (R mod 4) · 256 …; the blocks tile the array; the host then regroups 131072 × 200 row-major into
  262144 × 100.
-/
import proofs.«180049_g2000200537359479_pallasbulk_177_3_alg».proof.Proof.Gen.KernelIdeal.Frame
import proofs.«180049_g2000200537359479_pallasbulk_177_3_alg».proof.Proof.KernelBody
import Idealize.ShloMosaic.Lib.Pipeline.Value
import Idealize.ShloMosaic.Lib.ValueIdx
import Idealize.ShloMosaic.Lib.StableHlo.Run

set_option maxRecDepth 16384

noncomputable section

open scoped BigOperators

namespace Cert.KernelValue

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The packed row that output row R is regrouped from. -/
def rowOf (R : Fin 131072) : Fin 32768 := ⟨R.val / 4, by have := R.isLt; omega⟩

/-- The column of the hidden array that entry c of output row R is regrouped from. -/
def colOf (R : Fin 131072) (cc : Fin 256) : Fin 1024 := ⟨R.val % 4 * 256 + cc.val, by have := cc.isLt; omega⟩

/-- Entry (R, d) of the 131072 × 200 array. -/
def gk (xp : S32768x392.Idx → EReal) (w1p : S392x1024.Idx → EReal) (b1p : S1x1024.Idx → EReal)
    (w2p : S256x200.Idx → EReal) (b2p : S1x200.Idx → EReal) (R : Fin 131072) (d : Fin 200) : EReal :=
  (∑ cc : Fin 256, max ((∑ k : Fin 392, xp (ix2 (rowOf R) k) * w1p (ix2 k (colOf R cc))) + b1p (ix2 0 (colOf R cc))) 0
      * w2p (ix2 cc d)) + b2p (ix2 0 d)

def GK (xp : S32768x392.Idx → EReal) (w1p : S392x1024.Idx → EReal) (b1p : S1x1024.Idx → EReal)
    (w2p : S256x200.Idx → EReal) (b2p : S1x200.Idx → EReal) : S131072x200.Idx → EReal :=
  fun i => gk xp w1p b1p w2p b2p (i 0) (i 1)

/-- The array-level function of the arrays the region finds. -/
abbrev GKm (c : Dev nD) : S131072x200.Idx → EReal :=
  GK (V m c main_call0_v23) (V m c main_call0_v24) (V m c main_call0_v19) (V m c main_call0_v25) (V m c main_call0_v22)

theorem hz : (![0, 0] : Fin 2 → Nat) = fun _ => 0 := funext fun a => by fin_cases a <;> rfl

/-- The printed index maps over the grid: the streamed windows sit at block row t, the others at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Two 1024 × 200 blocks are equal when they agree entry by entry. -/
theorem blk_ext (f g : S1024x200.Idx → EReal) (h : ∀ (r : Fin 1024) (d : Fin 200), f (ix2 r d) = g (ix2 r d)) : f = g := by
  funext j
  obtain ⟨r, d, rfl⟩ : ∃ (r : Fin 1024) (d : Fin 200), j = ix2 r d := ⟨j 0, j 1, eq_ix2 j⟩
  exact h r d

/-- The streamed input block at point t is rows 256·t … of the packed input. -/
theorem blk0 (c : Dev nD) (t : Fin cfg0.N) (r : Fin 256) (k : Fin 392) (b : Fin 32768) (hb : b.val = t.val * 256 + r.val) :
    iblk m c 0 t (ix2 r k) = (V m c main_call0_v23 : S32768x392.Idx → EReal) (ix2 b k) := by
  obtain ⟨e0, e1, -⟩ := idx_facts t
  show V m c main_call0_v23 (((cfg0.win 0).blk t).view.emb (ix2 r k)) = _
  have h0 : ((cfg0.win 0).blk t).view.emb (ix2 r k) = ix2 b k := by
    funext a; apply Fin.ext
    match a with
    | ⟨0, _⟩ => show win0_0.index t (0 : Fin 2) * 256 + 1 * r.val = b.val; omega
    | ⟨1, _⟩ => show win0_0.index t (1 : Fin 2) * 392 + 1 * k.val = k.val; omega
  rw [h0]

/-- The four resident windows hold their whole arrays. -/
theorem blk1 (c : Dev nD) (t : Fin cfg0.N) (y : S392x1024.Idx) :
    iblk m c 1 t y = (V m c main_call0_v24 : S392x1024.Idx → EReal) y := by
  obtain ⟨-, -, e0, e1, -⟩ := idx_facts t
  show V m c main_call0_v24 (((cfg0.win 1).blk t).view.emb y) = _
  have h0 : ((cfg0.win 1).blk t).view.emb y = y := by
    funext a; apply Fin.ext
    match a with
    | ⟨0, _⟩ => show win0_1.index t (0 : Fin 2) * 392 + 1 * (y 0).val = (y 0).val; omega
    | ⟨1, _⟩ => show win0_1.index t (1 : Fin 2) * 1024 + 1 * (y 1).val = (y 1).val; omega
  rw [h0]

theorem blk2 (c : Dev nD) (t : Fin cfg0.N) (y : S1x1024.Idx) :
    iblk m c 2 t y = (V m c main_call0_v19 : S1x1024.Idx → EReal) y := by
  obtain ⟨-, -, -, -, e0, e1, -⟩ := idx_facts t
  show V m c main_call0_v19 (((cfg0.win 2).blk t).view.emb y) = _
  have h0 : ((cfg0.win 2).blk t).view.emb y = y := by
    funext a; apply Fin.ext
    match a with
    | ⟨0, _⟩ => show win0_2.index t (0 : Fin 2) * 1 + 1 * (y 0).val = (y 0).val; omega
    | ⟨1, _⟩ => show win0_2.index t (1 : Fin 2) * 1024 + 1 * (y 1).val = (y 1).val; omega
  rw [h0]

theorem blk3 (c : Dev nD) (t : Fin cfg0.N) (y : S256x200.Idx) :
    iblk m c 3 t y = (V m c main_call0_v25 : S256x200.Idx → EReal) y := by
  obtain ⟨-, -, -, -, -, -, e0, e1, -⟩ := idx_facts t
  show V m c main_call0_v25 (((cfg0.win 3).blk t).view.emb y) = _
  have h0 : ((cfg0.win 3).blk t).view.emb y = y := by
    funext a; apply Fin.ext
    match a with
    | ⟨0, _⟩ => show win0_3.index t (0 : Fin 2) * 256 + 1 * (y 0).val = (y 0).val; omega
    | ⟨1, _⟩ => show win0_3.index t (1 : Fin 2) * 200 + 1 * (y 1).val = (y 1).val; omega
  rw [h0]

theorem blk4 (c : Dev nD) (t : Fin cfg0.N) (y : S1x200.Idx) :
    iblk m c 4 t y = (V m c main_call0_v22 : S1x200.Idx → EReal) y := by
  obtain ⟨-, -, -, -, -, -, -, -, e0, e1, -⟩ := idx_facts t
  show V m c main_call0_v22 (((cfg0.win 4).blk t).view.emb y) = _
  have h0 : ((cfg0.win 4).blk t).view.emb y = y := by
    funext a; apply Fin.ext
    match a with
    | ⟨0, _⟩ => show win0_4.index t (0 : Fin 2) * 1 + 1 * (y 0).val = (y 0).val; omega
    | ⟨1, _⟩ => show win0_4.index t (1 : Fin 2) * 200 + 1 * (y 1).val = (y 1).val; omega
  rw [h0]

/-- Where the output block's entry (r, d) at point t sits in the array. -/
theorem emb5 (t : Fin cfg0.N) (r : Fin 1024) (d : Fin 200) (R : Fin 131072) (hR : R.val = t.val * 1024 + r.val) :
    ((cfg0.win 5).blk t).view.emb (ix2 r d) = ix2 R d := by
  obtain ⟨-, -, -, -, -, -, -, -, -, -, e0, e1⟩ := idx_facts t
  funext a; apply Fin.ext
  match a with
  | ⟨0, _⟩ => show win0_5.index t (0 : Fin 2) * 1024 + 1 * r.val = R.val; omega
  | ⟨1, _⟩ => show win0_5.index t (1 : Fin 2) * 200 + 1 * d.val = d.val; omega

/-- What point t writes back is block t of the array-level function. -/
theorem flushed_eq (c : Dev nD) (t : Fin cfg0.N) :
    (dats m 0 c).flushed 5 t = ((cfg0.win 5).blk t).view.read (Elt Ideal) (GKm m c) := by
  show (cfg0.win 5).cut (grid0.coords t) ((dats m 0 c).after 5 t) = _
  rw [after0_5]
  unfold out0_5
  rw [View.canon_unit_zero hz]
  simp only [View.ld_unit_zero (S := S256x392) hz, View.ld_unit_zero (S := S392x1024) hz, View.ld_unit_zero (S := S1x1024) hz,
    View.ld_unit_zero (S := S256x200) hz, View.ld_unit_zero (S := S1x200) hz]
  refine blk_ext _ _ fun r d => ?_
  have hN : cfg0.N = 128 := N_0
  have ht : t.val < 128 := hN ▸ t.isLt
  have hr : r.val < 1024 := r.isLt
  have hR : t.val * 1024 + r.val < 131072 := by omega
  have hρ : r.val / 4 < 256 := by omega
  show _ = GKm m c (((cfg0.win 5).blk t).view.emb (ix2 r d))
  rw [emb5 t r d ⟨t.val * 1024 + r.val, hR⟩ rfl]
  refine (Cert.KernelBody.pay_apply (iblk m c 0 t) (iblk m c 1 t) (iblk m c 2 t) (iblk m c 3 t) (iblk m c 4 t) r d
    ⟨r.val / 4, hρ⟩ (fun cc => colOf ⟨t.val * 1024 + r.val, hR⟩ cc) (fun cc => by
      show r.val / 4 * 1024 + ((t.val * 1024 + r.val) % 4 * 256 + cc.val) = r.val * 256 + cc.val
      omega)).trans ?_
  show _ = gk _ _ _ _ _ ⟨t.val * 1024 + r.val, hR⟩ d
  unfold gk
  refine congrArg₂ (· + ·) (Finset.sum_congr rfl fun cc _ => ?_) (blk4 m c t _)
  refine congrArg₂ (· * ·) ?_ (blk3 m c t _)
  refine congrArg (max · 0) ?_
  refine congrArg₂ (· + ·) (Finset.sum_congr rfl fun k _ => ?_) (blk2 m c t _)
  refine congrArg₂ (· * ·) (blk0 m c t ⟨r.val / 4, hρ⟩ k (rowOf ⟨t.val * 1024 + r.val, hR⟩) ?_) (blk1 m c t _)
  show (t.val * 1024 + r.val) / 4 = t.val * 256 + r.val / 4
  omega

/-- An index of the array is in point t's block iff each coordinate is in the block's range. -/
theorem mem_blk (t : Fin cfg0.N) (i : S131072x200.Idx) :
    i ∈ ((cfg0.win 5).blk t).view.set ↔ ∀ a : Fin 2, win0_5.index t a * S1024x200.size a ≤ (i a).val ∧ (i a).val < win0_5.index t a * S1024x200.size a + S1024x200.size a := by
  show i ∈ ((View.whole main_call0_v26).slice (win0_5.rect t)).set ↔ _
  rw [View.set_slice_whole, Rect.mem_set_unit]
  exact Iff.rfl

/-- The blocks tile the array: row i sits in the block of point i / 1024. -/
theorem cover (i : S131072x200.Idx) :
    ∃ t : Fin cfg0.N, (cfg0.win 5).flush t = true ∧ i ∈ ((cfg0.win 5).blk t).view.set := by
  have hi0 : (i 0).val < 131072 := (i 0).isLt
  have hi1 : (i 1).val < 200 := (i 1).isLt
  have hN : cfg0.N = 128 := N_0
  have hlt : (i 0).val / 1024 < cfg0.N := by rw [hN]; omega
  obtain ⟨-, -, -, -, -, -, -, -, -, -, e0, e1⟩ := idx_facts ⟨(i 0).val / 1024, hlt⟩
  refine ⟨⟨(i 0).val / 1024, hlt⟩, flush0_5 _, ?_⟩
  rw [mem_blk]
  intro a
  match a with
  | ⟨0, _⟩ =>
    show win0_5.index ⟨(i 0).val / 1024, hlt⟩ (0 : Fin 2) * 1024 ≤ (i 0).val ∧ (i 0).val < win0_5.index ⟨(i 0).val / 1024, hlt⟩ (0 : Fin 2) * 1024 + 1024
    have e0' : win0_5.index ⟨(i 0).val / 1024, hlt⟩ (0 : Fin 2) = (i 0).val / 1024 := e0
    omega
  | ⟨1, _⟩ =>
    show win0_5.index ⟨(i 0).val / 1024, hlt⟩ (1 : Fin 2) * 200 ≤ (i 1).val ∧ (i 1).val < win0_5.index ⟨(i 0).val / 1024, hlt⟩ (1 : Fin 2) * 200 + 200
    omega

/-- The array after the run. -/
theorem final (c : Dev nD) : (dats m 0 c).arrAt 5 cfg0.N = GKm m c :=
  (dats m 0 c).arrAt_eq_of_cover 5 (GKm m c) (fun t _ => flushed_eq m c t) cover

/-- The result buffer is that array regrouped row-major into 262144 × 100. -/
theorem tail_eq (c : Dev nD) :
    (Pipeline.afterTail₀ cfgs (dats m) 0 (V0 m) [hostOps1] c main_v0 : S262144x100.Idx → EReal)
      = shapeCast S262144x100 (GKm m c) shapeCasts_S131072x200_S262144x100 := by
  unfold Pipeline.afterTail₀
  show StableHlo.after hostOps1 _ (Proc.devRef .tc main_v0) = _
  after_results
  exact congrArg (fun x => shapeCast S262144x100 x shapeCasts_S131072x200_S262144x100)
    ((Pipeline.withArrays_arr spec0 launch0.win.arr_inj c (V0 m c) (fun w => (dats m 0 c).arrAt w cfg0.N) 5).trans (final m c))

/-- Entry (b, n) of the result is entry (b / 2, (b mod 2) · 100 + n) of the array. -/
theorem result_at (c : Dev nD) (b : Fin 262144) (n : Fin 100) (R : Fin 131072) (d : Fin 200)
    (h : R.val * 200 + d.val = b.val * 100 + n.val) :
    (Pipeline.afterTail₀ cfgs (dats m) 0 (V0 m) [hostOps1] c main_v0 : S262144x100.Idx → EReal) (ix2 b n)
      = gk (V m c main_call0_v23) (V m c main_call0_v24) (V m c main_call0_v19) (V m c main_call0_v25) (V m c main_call0_v22) R d := by
  rw [tail_eq]
  refine (shapeCast_apply _ _ (ix2 b n) (ix2 R d) ?_).trans rfl
  rw [Shape.rowMajor_val_two, Shape.rowMajor_val_two]
  exact h

end Cert.KernelValue

end
-- ==== Proof.KernelHost.lean ====
/-
  What the five arrays staged into the region hold when it is entered, entry by entry, in terms of the five
  argument arrays x [262144, 49], W1 [128, 128], b1 [1, 128], W2 [128, 128], b2 [1, 128].

  * the input: x with eight consecutive rows joined into one, [32768, 392]: entry (ρ, a·49 + f) is x[8ρ + a, f];
  * the first weights: the Kronecker product of the identity of order 8 with the first 49 rows of W1, [392, 1024]:
    entry (a·49 + f, a'·128 + j) is δ(a, a') · W1[f, j];
  * the first bias: b1 repeated 8 times, [1, 1024]: entry (0, a'·128 + j) is b1[0, j];
  * the second weights: the Kronecker product of the identity of order 2 with the first 100 columns of W2,
    [256, 200]: entry (a·128 + k, a'·100 + n) is δ(a, a') · W2[k, n];
  * the second bias: the first 100 entries of b2 repeated twice, [1, 200]: entry (0, a'·100 + n) is b2[0, n].

  Each array is first identified with the term the operations before the region compute from the arguments, and that
  term is then read at an index one layout operation at a time. The identity matrices are computed from two
  counters compared for equality; their entries are decided over the 8 · 8 (2 · 2) pairs of coordinates. On the
  extended reals the change of number format applied to the two weight arrays is the identity.
-/
import proofs.«180049_g2000200537359479_pallasbulk_177_3_alg».proof.Proof.Gen.KernelIdeal.Frame
import Idealize.ShloMosaic.Lib.Pipeline.Value
import Idealize.ShloMosaic.Lib.ValueIdx
import Idealize.ShloMosaic.Lib.ValueLayout
import Idealize.ShloMosaic.Lib.IdealHost
import Idealize.ShloMosaic.Lib.StableHlo.Run
noncomputable section
namespace Cert.KernelHost
open Idealize.ShloMosaic Idealize.ShloMosaic.TcCoe Idealize.ShloMosaic.ValueIdx Idealize.SL.Sem
open Cert.KernelIdeal Cert.KernelIdeal.Gen
variable (m : (ℓ : Loc nD τ sig) → Buf (Elt Ideal) ℓ) (c : Dev nD)

/-- The staged input is the argument array regrouped: eight consecutive rows of 49 entries make one row of 392. -/
theorem v23_eq :
    (V m c main_call0_v23 : S32768x392.Idx → EReal)
      = shapeCast S32768x392 (m ((c : Thread nD τ).loc main_arg0) : S262144x49.Idx → EReal) shapeCasts_S262144x49_S32768x392 := by
  show StableHlo.after hostOps0 (fun b => m (c, b)) (Proc.devRef .tc main_call0_v23) = _
  after_results
  rfl

theorem xp_apply (ρ : Fin 32768) (k : Fin 392) (a : Fin 8) (f : Fin 49) (b : Fin 262144)
    (hk : k.val = a.val * 49 + f.val) (hb : b.val = 8 * ρ.val + a.val) :
    (V m c main_call0_v23 : S32768x392.Idx → EReal) (ix2 ρ k) = (m ((c : Thread nD τ).loc main_arg0) : S262144x49.Idx → EReal) (ix2 b f) := by
  refine (congrFun (v23_eq m c) (ix2 ρ k)).trans ?_
  -- entry a·49 + f of long row ρ is entry f of row 8ρ + a: the same row-major position
  refine shapeCast_apply _ _ (ix2 ρ k) (ix2 b f) ?_
  rw [Shape.rowMajor_val_two, Shape.rowMajor_val_two]
  show b.val * 49 + f.val = ρ.val * 392 + k.val
  omega

/-- The identity matrix of order 8 as the operations compute it: the word 1 where the row counter (plus the
    constant 0) equals the column counter, the word 0 elsewhere, read as a number. -/
def eye8 : S8x8.Idx → EReal :=
  uitofp (F := Ideal) .f32
    (cmpi .eq (addi (iotaInDim S8x8 32 0) (broadcastInDim S8x8 ![] bcast_S_S8x8 (constantI S_ 32 0#32))) (iotaInDim S8x8 32 1))

/-- Its entries: 1 on the diagonal, 0 off it. -/
theorem eye8_apply (a a' : Fin 8) : eye8 (ix2 a a') = if a = a' then (1 : EReal) else 0 := by
  have key : ∀ a a' : Fin 8,
      IntOp.cmpi .eq (IntOp.addi (BitVec.ofNat 32 a.val) 0#32) (BitVec.ofNat 32 a'.val) = if a = a' then 1#1 else 0#1 := by
    decide
  show (((IntOp.cmpi .eq (IntOp.addi (BitVec.ofNat 32 a.val) 0#32) (BitVec.ofNat 32 a'.val)).toNat : ℝ) : EReal) = _
  rw [key a a']
  by_cases h : a = a'
  · rw [if_pos h, if_pos h]; norm_num
  · rw [if_neg h, if_neg h]; norm_num

/-- The Kronecker product of the identity of order 8 with the first 49 rows of a 128 × 128 array, as the operations
    compute it: both factors spread over the four axes (block row, row, block column, column), multiplied, and the
    four axes merged in pairs. -/
def kron8 (w : S128x128.Idx → EReal) : S392x1024.Idx → EReal :=
  shapeCast S392x1024
    (mulf (F := Ideal) (φ := .f32)
      (broadcastInDim S8x49x8x128 ![0, 1, 2, 3] bcast_S8x1x8x1_S8x49x8x128_0_1_2_3
        (broadcastInDim S8x1x8x1 ![0, 2] bcast_S8x8_S8x1x8x1_0_2 eye8))
      (broadcastInDim S8x49x8x128 ![0, 1, 2, 3] bcast_S1x49x1x128_S8x49x8x128_0_1_2_3
        (broadcastInDim S1x49x1x128 ![1, 3] bcast_S49x128_S1x49x1x128_1_3
          (extractStridedSlice S49x128 ![0, 0] w slices_S128x128_S49x128_0_0))))
    shapeCasts_S8x49x8x128_S392x1024

/-- The staged first weight array is that product of the argument (the change of format is the identity on
    extended reals). -/
theorem v24_eq :
    (V m c main_call0_v24 : S392x1024.Idx → EReal)
      = truncf (F := Ideal) (φ := .f32) .bf16 (kron8 (m ((c : Thread nD τ).loc main_arg1) : S128x128.Idx → EReal)) bitsLt_bf16_f32 := by
  show StableHlo.after hostOps0 (fun b => m (c, b)) (Proc.devRef .tc main_call0_v24) = _
  after_results
  rfl

/-- An entry of that product: at row a·49 + f and column a'·128 + j it is the identity's entry (a, a') times the
    array's entry (f, j). -/
theorem kron8_apply (w : S128x128.Idx → EReal) (k : Fin 392) (col : Fin 1024) (a : Fin 8) (f : Fin 49) (a' : Fin 8) (j : Fin 128)
    (hk : k.val = a.val * 49 + f.val) (hcol : col.val = a'.val * 128 + j.val) :
    kron8 w (ix2 k col) = (if a = a' then (1 : EReal) else 0) * w (ix2 (Fin.castLE (by norm_num) f) j) := by
  unfold kron8
  -- merging the axes in pairs keeps the row-major position
  refine (shapeCast_apply _ _ (ix2 k col) (ix4 a f a' j) ?_).trans ?_
  · rw [Shape.rowMajor_val_four, Shape.rowMajor_val_two]
    show ((a.val * 49 + f.val) * 8 + a'.val) * 128 + j.val = k.val * 1024 + col.val
    omega
  refine (mulf_apply _ _ _).trans ?_
  refine congrArg₂ (· * ·) ?_ ?_
  · -- the identity spread over the four axes reads its entry (a, a')
    refine (broadcastInDim_apply _ _ _ (ix4 a f a' j) (ix4 a (0 : Fin 1) a' (0 : Fin 1))
      (fun x => match x with | ⟨0, _⟩ => rfl | ⟨1, _⟩ => rfl | ⟨2, _⟩ => rfl | ⟨3, _⟩ => rfl)).trans ?_
    refine (broadcastInDim_apply _ _ _ (ix4 a (0 : Fin 1) a' (0 : Fin 1)) (ix2 a a')
      (fun x => match x with | ⟨0, _⟩ => rfl | ⟨1, _⟩ => rfl)).trans ?_
    exact eye8_apply a a'
  · -- the array spread over the four axes reads its entry (f, j), a row below 49
    refine (broadcastInDim_apply _ _ _ (ix4 a f a' j) (ix4 (0 : Fin 1) f (0 : Fin 1) j)
      (fun x => match x with | ⟨0, _⟩ => rfl | ⟨1, _⟩ => rfl | ⟨2, _⟩ => rfl | ⟨3, _⟩ => rfl)).trans ?_
    refine (broadcastInDim_apply _ _ _ (ix4 (0 : Fin 1) f (0 : Fin 1) j) (ix2 f j)
      (fun x => match x with | ⟨0, _⟩ => rfl | ⟨1, _⟩ => rfl)).trans ?_
    exact extractStridedSlice_apply _ _ _ (ix2 f j) (ix2 (Fin.castLE (by norm_num) f) j)
      (fun x => match x with
        | ⟨0, _⟩ => by show f.val = 0 + f.val; omega
        | ⟨1, _⟩ => by show j.val = 0 + j.val; omega)

theorem w1p_apply (k : Fin 392) (col : Fin 1024) (a : Fin 8) (f : Fin 49) (a' : Fin 8) (j : Fin 128)
    (hk : k.val = a.val * 49 + f.val) (hcol : col.val = a'.val * 128 + j.val) :
    (V m c main_call0_v24 : S392x1024.Idx → EReal) (ix2 k col)
      = (if a = a' then (1 : EReal) else 0) * (m ((c : Thread nD τ).loc main_arg1) : S128x128.Idx → EReal) (ix2 (Fin.castLE (by norm_num) f) j) := by
  refine (congrFun (v24_eq m c) (ix2 k col)).trans ?_
  refine (truncf_apply (φ := .f32) (ψ := .bf16) (kron8 (m ((c : Thread nD τ).loc main_arg1))) bitsLt_bf16_f32 (ix2 k col)).trans ?_
  exact kron8_apply _ k col a f a' j hk hcol

/-- The staged first bias row is the argument row repeated 8 times: given a unit axis, spread to 8 copies, and the
    copies laid side by side. -/
theorem v19_eq :
    (V m c main_call0_v19 : S1x1024.Idx → EReal)
      = shapeCast S1x1024
          (broadcastInDim S1x1x8x128 ![0, 1, 2, 3] bcast_S1x1x1x128_S1x1x8x128_0_1_2_3
            (shapeCast S1x1x1x128 (m ((c : Thread nD τ).loc main_arg2) : S1x128.Idx → EReal) shapeCasts_S1x128_S1x1x1x128))
          shapeCasts_S1x1x8x128_S1x1024 := by
  show StableHlo.after hostOps0 (fun b => m (c, b)) (Proc.devRef .tc main_call0_v19) = _
  after_results
  rfl

theorem b1p_apply (col : Fin 1024) (a' : Fin 8) (j : Fin 128) (hcol : col.val = a'.val * 128 + j.val) :
    (V m c main_call0_v19 : S1x1024.Idx → EReal) (ix2 0 col) = (m ((c : Thread nD τ).loc main_arg2) : S1x128.Idx → EReal) (ix2 0 j) := by
  refine (congrFun (v19_eq m c) (ix2 0 col)).trans ?_
  -- column a'·128 + j of the long row is entry j of copy a'
  refine (shapeCast_apply _ _ (ix2 (0 : Fin 1) col) (ix4 (0 : Fin 1) (0 : Fin 1) a' j) ?_).trans ?_
  · rw [Shape.rowMajor_val_four, Shape.rowMajor_val_two]
    show ((0 * 1 + 0) * 8 + a'.val) * 128 + j.val = 0 * 1024 + col.val
    omega
  -- every copy is the one row
  refine (broadcastInDim_apply _ _ _ (ix4 (0 : Fin 1) (0 : Fin 1) a' j) (ix4 (0 : Fin 1) (0 : Fin 1) (0 : Fin 1) j)
    (fun x => match x with | ⟨0, _⟩ => rfl | ⟨1, _⟩ => rfl | ⟨2, _⟩ => rfl | ⟨3, _⟩ => rfl)).trans ?_
  refine shapeCast_apply _ _ (ix4 (0 : Fin 1) (0 : Fin 1) (0 : Fin 1) j) (ix2 (0 : Fin 1) j) ?_
  rw [Shape.rowMajor_val_four, Shape.rowMajor_val_two]
  show 0 * 128 + j.val = ((0 * 1 + 0) * 1 + 0) * 128 + j.val
  omega

/-- The identity matrix of order 2 as the operations compute it. -/
def eye2 : S2x2.Idx → EReal :=
  uitofp (F := Ideal) .f32
    (cmpi .eq (addi (iotaInDim S2x2 32 0) (broadcastInDim S2x2 ![] bcast_S_S2x2 (constantI S_ 32 0#32))) (iotaInDim S2x2 32 1))

/-- Its entries: 1 on the diagonal, 0 off it. -/
theorem eye2_apply (a a' : Fin 2) : eye2 (ix2 a a') = if a = a' then (1 : EReal) else 0 := by
  have key : ∀ a a' : Fin 2,
      IntOp.cmpi .eq (IntOp.addi (BitVec.ofNat 32 a.val) 0#32) (BitVec.ofNat 32 a'.val) = if a = a' then 1#1 else 0#1 := by
    decide
  show (((IntOp.cmpi .eq (IntOp.addi (BitVec.ofNat 32 a.val) 0#32) (BitVec.ofNat 32 a'.val)).toNat : ℝ) : EReal) = _
  rw [key a a']
  by_cases h : a = a'
  · rw [if_pos h, if_pos h]; norm_num
  · rw [if_neg h, if_neg h]; norm_num

/-- The Kronecker product of the identity of order 2 with the first 100 columns of a 128 × 128 array, as the
    operations compute it. -/
def kron2 (w : S128x128.Idx → EReal) : S256x200.Idx → EReal :=
  shapeCast S256x200
    (mulf (F := Ideal) (φ := .f32)
      (broadcastInDim S2x128x2x100 ![0, 1, 2, 3] bcast_S2x1x2x1_S2x128x2x100_0_1_2_3
        (broadcastInDim S2x1x2x1 ![0, 2] bcast_S2x2_S2x1x2x1_0_2 eye2))
      (broadcastInDim S2x128x2x100 ![0, 1, 2, 3] bcast_S1x128x1x100_S2x128x2x100_0_1_2_3
        (broadcastInDim S1x128x1x100 ![1, 3] bcast_S128x100_S1x128x1x100_1_3
          (extractStridedSlice S128x100 ![0, 0] w slices_S128x128_S128x100_0_0))))
    shapeCasts_S2x128x2x100_S256x200

/-- The staged second weight array is that product of the argument. -/
theorem v25_eq :
    (V m c main_call0_v25 : S256x200.Idx → EReal)
      = truncf (F := Ideal) (φ := .f32) .bf16 (kron2 (m ((c : Thread nD τ).loc main_arg3) : S128x128.Idx → EReal)) bitsLt_bf16_f32 := by
  show StableHlo.after hostOps0 (fun b => m (c, b)) (Proc.devRef .tc main_call0_v25) = _
  after_results
  rfl

/-- An entry of that product: at row a·128 + k and column a'·100 + n it is the identity's entry (a, a') times the
    array's entry (k, n). -/
theorem kron2_apply (w : S128x128.Idx → EReal) (cc : Fin 256) (d : Fin 200) (a : Fin 2) (k : Fin 128) (a' : Fin 2) (n : Fin 100)
    (hc : cc.val = a.val * 128 + k.val) (hd : d.val = a'.val * 100 + n.val) :
    kron2 w (ix2 cc d) = (if a = a' then (1 : EReal) else 0) * w (ix2 k (Fin.castLE (by norm_num) n)) := by
  unfold kron2
  -- merging the axes in pairs keeps the row-major position
  refine (shapeCast_apply _ _ (ix2 cc d) (ix4 a k a' n) ?_).trans ?_
  · rw [Shape.rowMajor_val_four, Shape.rowMajor_val_two]
    show ((a.val * 128 + k.val) * 2 + a'.val) * 100 + n.val = cc.val * 200 + d.val
    omega
  refine (mulf_apply _ _ _).trans ?_
  refine congrArg₂ (· * ·) ?_ ?_
  · -- the identity spread over the four axes reads its entry (a, a')
    refine (broadcastInDim_apply _ _ _ (ix4 a k a' n) (ix4 a (0 : Fin 1) a' (0 : Fin 1))
      (fun x => match x with | ⟨0, _⟩ => rfl | ⟨1, _⟩ => rfl | ⟨2, _⟩ => rfl | ⟨3, _⟩ => rfl)).trans ?_
    refine (broadcastInDim_apply _ _ _ (ix4 a (0 : Fin 1) a' (0 : Fin 1)) (ix2 a a')
      (fun x => match x with | ⟨0, _⟩ => rfl | ⟨1, _⟩ => rfl)).trans ?_
    exact eye2_apply a a'
  · -- the array spread over the four axes reads its entry (k, n), a column below 100
    refine (broadcastInDim_apply _ _ _ (ix4 a k a' n) (ix4 (0 : Fin 1) k (0 : Fin 1) n)
      (fun x => match x with | ⟨0, _⟩ => rfl | ⟨1, _⟩ => rfl | ⟨2, _⟩ => rfl | ⟨3, _⟩ => rfl)).trans ?_
    refine (broadcastInDim_apply _ _ _ (ix4 (0 : Fin 1) k (0 : Fin 1) n) (ix2 k n)
      (fun x => match x with | ⟨0, _⟩ => rfl | ⟨1, _⟩ => rfl)).trans ?_
    exact extractStridedSlice_apply _ _ _ (ix2 k n) (ix2 k (Fin.castLE (by norm_num) n))
      (fun x => match x with
        | ⟨0, _⟩ => by show k.val = 0 + k.val; omega
        | ⟨1, _⟩ => by show n.val = 0 + n.val; omega)

theorem w2p_apply (cc : Fin 256) (d : Fin 200) (a : Fin 2) (k : Fin 128) (a' : Fin 2) (n : Fin 100)
    (hc : cc.val = a.val * 128 + k.val) (hd : d.val = a'.val * 100 + n.val) :
    (V m c main_call0_v25 : S256x200.Idx → EReal) (ix2 cc d)
      = (if a = a' then (1 : EReal) else 0) * (m ((c : Thread nD τ).loc main_arg3) : S128x128.Idx → EReal) (ix2 k (Fin.castLE (by norm_num) n)) := by
  refine (congrFun (v25_eq m c) (ix2 cc d)).trans ?_
  refine (truncf_apply (φ := .f32) (ψ := .bf16) (kron2 (m ((c : Thread nD τ).loc main_arg3))) bitsLt_bf16_f32 (ix2 cc d)).trans ?_
  exact kron2_apply _ cc d a k a' n hc hd

/-- The staged second bias row is the first 100 entries of the argument row repeated twice. -/
theorem v22_eq :
    (V m c main_call0_v22 : S1x200.Idx → EReal)
      = shapeCast S1x200
          (broadcastInDim S1x1x2x100 ![0, 1, 2, 3] bcast_S1x1x1x100_S1x1x2x100_0_1_2_3
            (shapeCast S1x1x1x100
              (extractStridedSlice S1x100 ![0, 0] (m ((c : Thread nD τ).loc main_arg4) : S1x128.Idx → EReal) slices_S1x128_S1x100_0_0)
              shapeCasts_S1x100_S1x1x1x100))
          shapeCasts_S1x1x2x100_S1x200 := by
  show StableHlo.after hostOps0 (fun b => m (c, b)) (Proc.devRef .tc main_call0_v22) = _
  after_results
  rfl

theorem b2p_apply (d : Fin 200) (a' : Fin 2) (n : Fin 100) (hd : d.val = a'.val * 100 + n.val) :
    (V m c main_call0_v22 : S1x200.Idx → EReal) (ix2 0 d) = (m ((c : Thread nD τ).loc main_arg4) : S1x128.Idx → EReal) (ix2 0 (Fin.castLE (by norm_num) n)) := by
  refine (congrFun (v22_eq m c) (ix2 0 d)).trans ?_
  -- column a'·100 + n of the long row is entry n of copy a'
  refine (shapeCast_apply _ _ (ix2 (0 : Fin 1) d) (ix4 (0 : Fin 1) (0 : Fin 1) a' n) ?_).trans ?_
  · rw [Shape.rowMajor_val_four, Shape.rowMajor_val_two]
    show ((0 * 1 + 0) * 2 + a'.val) * 100 + n.val = 0 * 200 + d.val
    omega
  -- every copy is the one row
  refine (broadcastInDim_apply _ _ _ (ix4 (0 : Fin 1) (0 : Fin 1) a' n) (ix4 (0 : Fin 1) (0 : Fin 1) (0 : Fin 1) n)
    (fun x => match x with | ⟨0, _⟩ => rfl | ⟨1, _⟩ => rfl | ⟨2, _⟩ => rfl | ⟨3, _⟩ => rfl)).trans ?_
  refine (shapeCast_apply _ _ (ix4 (0 : Fin 1) (0 : Fin 1) (0 : Fin 1) n) (ix2 (0 : Fin 1) n) ?_).trans ?_
  · rw [Shape.rowMajor_val_four, Shape.rowMajor_val_two]
    show 0 * 100 + n.val = ((0 * 1 + 0) * 1 + 0) * 100 + n.val
    omega
  -- the row's first 100 entries
  exact extractStridedSlice_apply _ _ _ (ix2 (0 : Fin 1) n) (ix2 (0 : Fin 1) (Fin.castLE (by norm_num) n))
    (fun x => match x with
      | ⟨0, _⟩ => by show 0 = 0 + 0; omega
      | ⟨1, _⟩ => by show n.val = 0 + n.val; omega)

end Cert.KernelHost
end
-- ==== Proof.Spec.lean ====
/-
  The function both programs compute.

  For a batch row b and an action n < 100 the network's output is

      Y b n = Σ_{k < 128} max (Σ_{f < 49} x[b,f] · W1[f,k] + b1[0,k]) 0 · W2[k,n] + b2[0,n]

  on the extended reals, W1, W2 the padded 128 × 128 weight arrays and b1, b2 the padded 1 × 128 bias rows.

  One program multiplies by a block-diagonal matrix, the other pads the contracted axis with zeros; the two
  summation laws that reduce their contractions to the ones above are in LibSumBlocks.lean.
-/
import Idealize.ShloMosaic.PureOps.Ideal
import Idealize.ShloMosaic.Lib.ValueIdx

noncomputable section

open scoped BigOperators

namespace Cert.Spec

open Idealize.ShloMosaic Idealize.ShloMosaic.ValueIdx

/-- The hidden layer: row b of x against column k of W1, plus the bias, clamped below at 0. -/
def hid (x : (⟨2, ![262144, 49]⟩ : Shape).Idx → EReal) (w1 : (⟨2, ![128, 128]⟩ : Shape).Idx → EReal)
    (b1 : (⟨2, ![1, 128]⟩ : Shape).Idx → EReal) (b : Fin 262144) (k : Fin 128) : EReal :=
  max ((∑ f : Fin 49, x (ix2 b f) * w1 (ix2 (Fin.castLE (by norm_num) f) k)) + b1 (ix2 0 k)) 0

/-- The output layer at row b and action n. -/
def out (x : (⟨2, ![262144, 49]⟩ : Shape).Idx → EReal) (w1 : (⟨2, ![128, 128]⟩ : Shape).Idx → EReal)
    (b1 : (⟨2, ![1, 128]⟩ : Shape).Idx → EReal) (w2 : (⟨2, ![128, 128]⟩ : Shape).Idx → EReal)
    (b2 : (⟨2, ![1, 128]⟩ : Shape).Idx → EReal) (b : Fin 262144) (n : Fin 100) : EReal :=
  (∑ k : Fin 128, hid x w1 b1 b k * w2 (ix2 k (Fin.castLE (by norm_num) n))) + b2 (ix2 0 (Fin.castLE (by norm_num) n))

/-- The result array, index by index. -/
def G (x : (⟨2, ![262144, 49]⟩ : Shape).Idx → EReal) (w1 : (⟨2, ![128, 128]⟩ : Shape).Idx → EReal)
    (b1 : (⟨2, ![1, 128]⟩ : Shape).Idx → EReal) (w2 : (⟨2, ![128, 128]⟩ : Shape).Idx → EReal)
    (b2 : (⟨2, ![1, 128]⟩ : Shape).Idx → EReal) : (⟨2, ![262144, 100]⟩ : Shape).Idx → EReal :=
  fun i => out x w1 b1 w2 b2 (i 0) (i 1)

end Cert.Spec

end
-- ==== Proof.LibSumBlocks.lean ====
/-
  Two laws for finite sums in an additive commutative monoid, for contractions that carry terms known to vanish.

  * `sum_diag_block`: a sum over N = A · n indices, read as A consecutive blocks of n, whose terms vanish outside
    block a0 and are g inside it, is the sum of g — a product with a block-diagonal matrix kron(I_A, W), or with any
    matrix whose off-diagonal blocks are zero, contracts over the diagonal block only.
  * `sum_padded`: a sum over N indices whose terms vanish from index n on and are g below it is the sum of g — a
    contraction over an axis padded with zeros.

  Mathlib only; any extents; the index facts are asked for as equations between natural numbers, so that a caller
  discharges them by linear arithmetic.
-/
import Mathlib.Algebra.BigOperators.Fin
import Mathlib.Logic.Equiv.Fin.Basic

open scoped BigOperators

namespace Cert.LibSumBlocks

variable {M : Type*} [AddCommMonoid M]

/-- A sum over A·n indices, read as A blocks of n, whose terms vanish outside block a0 and are g inside it. -/
theorem sum_diag_block {A n N : ℕ} (hN : A * n = N) (F : Fin N → M) (a0 : Fin A) (g : Fin n → M)
    (hoff : ∀ (a : Fin A) (f : Fin n) (k : Fin N), k.val = a.val * n + f.val → a ≠ a0 → F k = 0)
    (hon : ∀ (f : Fin n) (k : Fin N), k.val = a0.val * n + f.val → F k = g f) :
    ∑ k, F k = ∑ f, g f := by
  subst hN
  rw [← Equiv.sum_comp finProdFinEquiv F, Fintype.sum_prod_type]
  rw [Finset.sum_eq_single a0]
  · refine Finset.sum_congr rfl fun f _ => hon f _ ?_
    show f.val + n * a0.val = _
    rw [Nat.mul_comm, Nat.add_comm]
  · intro a _ ha
    refine Finset.sum_eq_zero fun f _ => hoff a f _ ?_ ha
    show f.val + n * a.val = _
    rw [Nat.mul_comm, Nat.add_comm]
  · intro h; exact absurd (Finset.mem_univ a0) h

/-- A sum over N indices whose terms vanish from index n on and are g below it. -/
theorem sum_padded {n N : ℕ} (hle : n ≤ N) (F : Fin N → M) (g : Fin n → M)
    (hin : ∀ (f : Fin n) (k : Fin N), k.val = f.val → F k = g f)
    (hout : ∀ k : Fin N, n ≤ k.val → F k = 0) :
    ∑ k, F k = ∑ f, g f := by
  obtain ⟨d, rfl⟩ := Nat.exists_eq_add_of_le hle
  rw [Fin.sum_univ_add]
  have h2 : ∑ i : Fin d, F (Fin.natAdd n i) = 0 :=
    Finset.sum_eq_zero fun i _ => hout _ (by simp [Fin.natAdd])
  rw [h2, add_zero]
  exact Finset.sum_congr rfl fun f _ => hin f _ (by simp)

end Cert.LibSumBlocks
-- ==== Proof.KernelResult.lean ====
/-
  The packed program's result is the network's output.

  The arrays the region finds are: x regrouped so that packed row ρ holds batch rows 8ρ … 8ρ + 7 side by side; the
  block-diagonal weight arrays, whose entry at row block a and column block a' is W[f, j] when a = a' and 0 · W[f, j]
  otherwise; and the bias rows repeated once per column block. In each contraction only the diagonal block
  contributes (`LibSumBlocks.sum_diag_block`), so entry (R, a'·100 + n) of the 131072 × 200 array is the output for batch row
  2R + a' and action n; the final regrouping into 262144 × 100 sends it to entry (2R + a', n).
-/
import proofs.«180049_g2000200537359479_pallasbulk_177_3_alg».proof.Proof.KernelValue
import proofs.«180049_g2000200537359479_pallasbulk_177_3_alg».proof.Proof.KernelHost
import proofs.«180049_g2000200537359479_pallasbulk_177_3_alg».proof.Proof.Spec
import proofs.«180049_g2000200537359479_pallasbulk_177_3_alg».proof.Proof.LibSumBlocks

set_option maxRecDepth 16384

noncomputable section

open scoped BigOperators

namespace Cert.KernelResult

open Idealize.ShloMosaic Idealize.ShloMosaic.TcCoe Idealize.ShloMosaic.ValueIdx Idealize.SL.Sem
open Idealize.ShloMosaic.Pipeline (Dat)
open Cert.KernelIdeal Cert.KernelIdeal.Gen Cert.KernelValue

variable (m : (ℓ : Loc nD τ sig) → Buf (Elt Ideal) ℓ) (ρ : Dev nD → PrngReg)

/-- The hidden entry that is regrouped to entry c of output row R. -/
def hidk (xp : S32768x392.Idx → EReal) (w1p : S392x1024.Idx → EReal) (b1p : S1x1024.Idx → EReal)
    (R : Fin 131072) (cc : Fin 256) : EReal :=
  max ((∑ kk : Fin 392, xp (ix2 (rowOf R) kk) * w1p (ix2 kk (colOf R cc))) + b1p (ix2 0 (colOf R cc))) 0

/-- The hidden entry regrouped to output row R, column c = a·128 + k, is the hidden layer of batch row 2R + a at k. -/
theorem hidden_at (c : Dev nD) (R : Fin 131072) (cc : Fin 256) (a : Fin 2) (k : Fin 128) (hc : cc.val = a.val * 128 + k.val)
    (b : Fin 262144) (hb : b.val = 2 * R.val + a.val) :
    hidk (V m c main_call0_v23) (V m c main_call0_v24) (V m c main_call0_v19) R cc
      = Cert.Spec.hid (m ((c : Thread nD τ).loc main_arg0)) (m ((c : Thread nD τ).loc main_arg1))
          (m ((c : Thread nD τ).loc main_arg2)) b k := by
  have hR : R.val < 131072 := R.isLt
  have ha : a.val < 2 := a.isLt
  have hk : k.val < 128 := k.isLt
  have ha0 : R.val % 4 * 2 + a.val < 8 := by omega
  have hcol : (colOf R cc).val = (⟨R.val % 4 * 2 + a.val, ha0⟩ : Fin 8).val * 128 + k.val := by
    show R.val % 4 * 256 + cc.val = (R.val % 4 * 2 + a.val) * 128 + k.val
    omega
  unfold hidk Cert.Spec.hid
  refine congrArg (max · 0) (congrArg₂ (· + ·) ?_ (Cert.KernelHost.b1p_apply m c (colOf R cc) ⟨R.val % 4 * 2 + a.val, ha0⟩ k hcol))
  refine Cert.LibSumBlocks.sum_diag_block (A := 8) (n := 49) (N := 392) rfl _ ⟨R.val % 4 * 2 + a.val, ha0⟩ _
    (fun a1 f kk hkk hne => ?_) (fun f kk hkk => ?_)
  · rw [Cert.KernelHost.w1p_apply m c kk (colOf R cc) a1 f ⟨R.val % 4 * 2 + a.val, ha0⟩ k hkk hcol, if_neg hne, zero_mul, mul_zero]
  · rw [Cert.KernelHost.w1p_apply m c kk (colOf R cc) ⟨R.val % 4 * 2 + a.val, ha0⟩ f ⟨R.val % 4 * 2 + a.val, ha0⟩ k hkk hcol,
      if_pos rfl, one_mul,
      Cert.KernelHost.xp_apply m c (rowOf R) kk ⟨R.val % 4 * 2 + a.val, ha0⟩ f b hkk (by
        show b.val = 8 * (R.val / 4) + (R.val % 4 * 2 + a.val)
        omega)]

/-- Entry (R, a'·100 + n) of the array the kernel writes is the output for batch row 2R + a' and action n. -/
theorem out_at (c : Dev nD) (R : Fin 131072) (d : Fin 200) (a' : Fin 2) (n : Fin 100) (hd : d.val = a'.val * 100 + n.val)
    (b : Fin 262144) (hb : b.val = 2 * R.val + a'.val) :
    gk (V m c main_call0_v23) (V m c main_call0_v24) (V m c main_call0_v19) (V m c main_call0_v25) (V m c main_call0_v22) R d
      = Cert.Spec.out (m ((c : Thread nD τ).loc main_arg0)) (m ((c : Thread nD τ).loc main_arg1))
          (m ((c : Thread nD τ).loc main_arg2)) (m ((c : Thread nD τ).loc main_arg3)) (m ((c : Thread nD τ).loc main_arg4)) b n := by
  unfold gk Cert.Spec.out
  refine congrArg₂ (· + ·) ?_ (Cert.KernelHost.b2p_apply m c d a' n hd)
  refine Cert.LibSumBlocks.sum_diag_block (A := 2) (n := 128) (N := 256) rfl _ a' _ (fun a k cc hcc hne => ?_) (fun k cc hcc => ?_)
  · rw [Cert.KernelHost.w2p_apply m c cc d a k a' n hcc hd, if_neg hne, zero_mul, mul_zero]
  · rw [Cert.KernelHost.w2p_apply m c cc d a' k a' n hcc hd, if_pos rfl, one_mul]
    exact congrArg (· * _) (hidden_at m c R cc a' k hcc b hb)

/-- The result buffer, entry by entry. -/
theorem result_eq (c : Dev nD) :
    (Pipeline.afterTail₀ cfgs (dats m) 0 (V0 m) [hostOps1] c main_v0 : S262144x100.Idx → EReal)
      = Cert.Spec.G (m ((c : Thread nD τ).loc main_arg0)) (m ((c : Thread nD τ).loc main_arg1))
          (m ((c : Thread nD τ).loc main_arg2)) (m ((c : Thread nD τ).loc main_arg3)) (m ((c : Thread nD τ).loc main_arg4)) := by
  funext i
  obtain ⟨b, n, rfl⟩ : ∃ (b : Fin 262144) (n : Fin 100), i = ix2 b n := ⟨i 0, i 1, eq_ix2 i⟩
  have hb : b.val < 262144 := b.isLt
  have hn : n.val < 100 := n.isLt
  have hR : b.val / 2 < 131072 := by omega
  have hd : b.val % 2 * 100 + n.val < 200 := by omega
  have ha : b.val % 2 < 2 := by omega
  rw [result_at m c b n ⟨b.val / 2, hR⟩ ⟨b.val % 2 * 100 + n.val, hd⟩ (by
    show b.val / 2 * 200 + (b.val % 2 * 100 + n.val) = b.val * 100 + n.val
    omega)]
  exact out_at m c ⟨b.val / 2, hR⟩ ⟨b.val % 2 * 100 + n.val, hd⟩ ⟨b.val % 2, ha⟩ n rfl b (by
    show b.val = 2 * (b.val / 2) + b.val % 2
    omega)

/-- The run: the result at the network's output, the arguments unchanged. -/
theorem run : θ_run defs (onTc (τ := τ) (main (F := Ideal))) ⟨m, fun _ => 0, ρ⟩ (fun r => ∀ c : Dev nD,
      r.2.mem ((c.tc : Thread nD τ).loc main_v0)
        = Cert.Spec.G (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v0 (Pipeline.mem_restRefs_of main_v0 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelResult

end
-- ==== Proof.RefBody.lean ====
/-
  The reference kernel's stored value, read at one entry.

  The body loads a 256 × 128 block x of the padded input, the two 128 × 128 weight arrays and the two 1 × 128 bias rows
  and stores, at entry (r, n),

      Σ_{k < 128} max (Σ_{f < 128} x[r,f] · W1[f,k] + b1[0,k]) 0 · W2[k,n] + b2[0,n].
-/
import proofs.«180049_g2000200537359479_pallasbulk_177_3_alg».proof.Proof.Gen.ReferenceIdeal.Skeleton
import proofs.«180049_g2000200537359479_pallasbulk_177_3_alg».proof.Proof.LibDotAt
import Idealize.ShloMosaic.Lib.Pipeline.Value
import Idealize.ShloMosaic.Lib.ValueIdx
import Idealize.ShloMosaic.PureOps.Ideal.Laws

noncomputable section

open scoped BigOperators

namespace Cert.RefBody

open Idealize.ShloMosaic Idealize.ShloMosaic.ValueIdx
open Cert.ReferenceIdeal Cert.ReferenceIdeal.Gen

/-- Both products of the body contract the second axis of a 256 × 128 operand with the first of a 128 × 128 one. -/
theorem dot_at (l : FVec Ideal S256x128 .f32) (r : FVec Ideal S128x128 .f32) (p : Fin 256) (q : Fin 128) :
    matmul dot_S256x128_S128x128_S256x128_1_0_0_1_n_n none l r (constant (F := Ideal) S256x128 .f32 0x00000000#32) (ix2 p q)
      = ∑ k : Fin 128, l (ix2 p k) * r (ix2 k q) :=
  Cert.LibDotAt.matmul_zero_ix2 dot_S256x128_S128x128_S256x128_1_0_0_1_n_n rfl rfl
    (fun j c => by simp [DotDims.lhsIdx, dot_S256x128_S128x128_S256x128_1_0_0_1_n_n]; rfl)
    (fun j c => DotDims.lhsIdx_val_of_single _ rfl j c)
    (fun j c => DotDims.rhsIdx_val_of_single _ rfl j c)
    (fun j c => by simp [DotDims.rhsIdx, dot_S256x128_S128x128_S256x128_1_0_0_1_n_n]; rfl)
    none l r p q

/-- A bias row broadcast down the 256 rows reads its own column. -/
theorem bias_at (v : FVec Ideal S1x128 .f32) (p : Fin 256) (q : Fin 128) :
    broadcastTo S256x128 v broadcasts_S1x128_S256x128 (ix2 p q) = v (ix2 0 q) :=
  broadcastTo_apply v broadcasts_S1x128_S256x128 (ix2 p q) (ix2 0 q) fun a => by
    match a with
    | ⟨0, _⟩ => rfl
    | ⟨1, _⟩ => rfl

theorem pay_apply (x0 : Vec Ideal S256x128 .f32) (x2 : Vec Ideal S128x128 .f32) (x4 : Vec Ideal S1x128 .f32)
    (x9 : Vec Ideal S128x128 .f32) (x11 : Vec Ideal S1x128 .f32) (r : Fin 256) (n : Fin 128) :
    k0_pay1 x0 x2 x4 x9 x11 (ix2 r n)
      = (∑ k : Fin 128, max ((∑ f : Fin 128, x0 (ix2 r f) * x2 (ix2 f k)) + x4 (ix2 0 k)) 0 * x9 (ix2 k n)) + x11 (ix2 0 n) := by
  unfold k0_pay1
  rw [shapeCast_self]
  refine (addf_apply _ _ _).trans ?_
  rw [bias_at, dot_at]
  refine congrArg (· + x11 (ix2 0 n)) (Finset.sum_congr rfl fun k _ => ?_)
  refine congrArg (· * x9 (ix2 k n)) ?_
  refine (maximumf_apply _ _ _).trans ?_
  rw [addf_apply, bias_at, dot_at]
  show max _ (Ideal.ofBits .f32 0x00000000#32) = _
  rw [Ideal.ofBits_zero_f32]

end Cert.RefBody

end
-- ==== Proof.RefValue.lean ====
/-
  What the reference program leaves in its result array.

  The host pads x from 49 to 128 columns with zeros; the kernel, on a grid of 1024 points, reads rows
  256·t … 256·t + 255 of the padded array and the whole weight and bias arrays, and writes the same rows of a
  262144 × 128 array; the host keeps the first 100 columns. Row by row and column by column the stored value is
  the body's formula of the padded row; the blocks tile the array; the padded columns contribute 0 · w = 0 to
  the first contraction, so the result is the network's output.
-/
import proofs.«180049_g2000200537359479_pallasbulk_177_3_alg».proof.Proof.Gen.ReferenceIdeal.Frame
import proofs.«180049_g2000200537359479_pallasbulk_177_3_alg».proof.Proof.RefBody
import proofs.«180049_g2000200537359479_pallasbulk_177_3_alg».proof.Proof.Spec
import proofs.«180049_g2000200537359479_pallasbulk_177_3_alg».proof.Proof.LibSumBlocks
import Idealize.ShloMosaic.Lib.Pipeline.Value
import Idealize.ShloMosaic.Lib.ValueIdx
import Idealize.ShloMosaic.Lib.KernelVsHost
import Idealize.ShloMosaic.Lib.StableHlo.Run

set_option maxRecDepth 16384

noncomputable section

open scoped BigOperators

namespace Cert.RefValue

open Idealize.ShloMosaic Idealize.ShloMosaic.TcCoe Idealize.ShloMosaic.ValueIdx Idealize.SL.Sem
open Idealize.ShloMosaic.Pipeline (Dat)
open Cert.ReferenceIdeal Cert.ReferenceIdeal.Gen

variable (m : (ℓ : Loc nD τ sig) → Buf (Elt Ideal) ℓ) (ρ : Dev nD → PrngReg)

/-! ## The padded input -/

/-- The array the first window stages is x padded with 79 columns of the converted integer 0. -/
theorem V_xpad (c : Dev nD) :
    (V m c main_call0_v0 : S262144x128.Idx → EReal)
      = pad S262144x128 ![0, 0] ![0, 79] ![0, 0] (m ((c : Thread nD τ).loc main_arg0))
          (sitofp (F := Ideal) .f32 (constantI S_ 32 0#32)) pads_S262144x49_S262144x128_000_0790 h_S_ := by
  show StableHlo.after hostOps0 (fun b => m (c, b)) (Proc.devRef .tc main_call0_v0) = _
  after_results
  rfl

/-- Inside the first 49 columns the padded array is x. -/
theorem xpad_in (c : Dev nD) (b : Fin 262144) (f : Fin 128) (f' : Fin 49) (hf : f.val = f'.val) :
    (V m c main_call0_v0 : S262144x128.Idx → EReal) (ix2 b f)
      = (m ((c : Thread nD τ).loc main_arg0) : S262144x49.Idx → EReal) (ix2 b f') := by
  rw [V_xpad]
  refine pad_apply_of_inside _ _ _ _ _ _ _ (ix2 b f) (ix2 b f') fun a => ?_
  match a with
  | ⟨0, _⟩ => show b.val = 0 + b.val * (0 + 1); omega
  | ⟨1, _⟩ => show f.val = 0 + f'.val * (0 + 1); omega

/-- Beyond them it is 0. -/
theorem xpad_out (c : Dev nD) (b : Fin 262144) (f : Fin 128) (hf : 49 ≤ f.val) :
    (V m c main_call0_v0 : S262144x128.Idx → EReal) (ix2 b f) = (0 : EReal) := by
  rw [V_xpad]
  refine (pad_apply_of_not_inside (s := S262144x49) _ _ _ _ _ _ _ (ix2 b f) (1 : Fin 2) ?_).trans ?_
  · show ¬(0 ≤ f.val ∧ (f.val - 0) % (0 + 1) = 0 ∧ (f.val - 0) / (0 + 1) < 49)
    omega
  · show ((((0#32 : BitVec 32).toInt : ℝ)) : EReal) = 0
    simp

/-! ## The array the kernel writes, as one function of the arrays it reads -/

/-- Entry (b, n) of the 262144 × 128 array: the body's formula of row b of the padded input. -/
def gr (xp : S262144x128.Idx → EReal) (w1 : S128x128.Idx → EReal) (b1 : S1x128.Idx → EReal)
    (w2 : S128x128.Idx → EReal) (b2 : S1x128.Idx → EReal) (b : Fin 262144) (n : Fin 128) : EReal :=
  (∑ k : Fin 128, max ((∑ f : Fin 128, xp (ix2 b f) * w1 (ix2 f k)) + b1 (ix2 0 k)) 0 * w2 (ix2 k n)) + b2 (ix2 0 n)

def GR (xp : S262144x128.Idx → EReal) (w1 : S128x128.Idx → EReal) (b1 : S1x128.Idx → EReal)
    (w2 : S128x128.Idx → EReal) (b2 : S1x128.Idx → EReal) : S262144x128.Idx → EReal :=
  fun i => gr xp w1 b1 w2 b2 (i 0) (i 1)

theorem hz : (![0, 0] : Fin 2 → Nat) = fun _ => 0 := funext fun a => by fin_cases a <;> rfl

/-- The printed index maps over the grid: the streamed windows sit at block row t, the others at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- A body's block is a block of G when its entries are the body's formula of the input blocks. -/
theorem pay_eq_of (x0 : Vec Ideal S256x128 .f32) (x1 : Vec Ideal S128x128 .f32) (x2 : Vec Ideal S1x128 .f32)
    (x3 : Vec Ideal S128x128 .f32) (x4 : Vec Ideal S1x128 .f32) (g : S256x128.Idx → EReal)
    (h : ∀ (r : Fin 256) (n : Fin 128), g (ix2 r n)
      = (∑ k : Fin 128, max ((∑ f : Fin 128, x0 (ix2 r f) * x1 (ix2 f k)) + x2 (ix2 0 k)) 0 * x3 (ix2 k n)) + x4 (ix2 0 n)) :
    k0_pay1 x0 x1 x2 x3 x4 = g := by
  funext j
  obtain ⟨r, n, rfl⟩ : ∃ (r : Fin 256) (n : Fin 128), j = ix2 r n := ⟨j 0, j 1, eq_ix2 j⟩
  rw [Cert.RefBody.pay_apply, h]

/-- The streamed input block at point t is rows 256·t … of the padded array. -/
theorem blk0 (c : Dev nD) (t : Fin cfg0.N) (r : Fin 256) (f : Fin 128) (b : Fin 262144) (hb : b.val = t.val * 256 + r.val) :
    iblk m c 0 t (ix2 r f) = (V m c main_call0_v0 : S262144x128.Idx → EReal) (ix2 b f) := by
  obtain ⟨e0, e1, -⟩ := idx_facts t
  show V m c main_call0_v0 (((cfg0.win 0).blk t).view.emb (ix2 r f)) = _
  have h0 : ((cfg0.win 0).blk t).view.emb (ix2 r f) = ix2 b f := by
    funext a; apply Fin.ext
    match a with
    | ⟨0, _⟩ => show win0_0.index t (0 : Fin 2) * 256 + 1 * r.val = b.val; omega
    | ⟨1, _⟩ => show win0_0.index t (1 : Fin 2) * 128 + 1 * f.val = f.val; omega
  rw [h0]

/-- The four resident windows hold their whole arrays, which are the arguments. -/
theorem blk1 (c : Dev nD) (t : Fin cfg0.N) (y : S128x128.Idx) :
    iblk m c 1 t y = (m ((c : Thread nD τ).loc main_arg1) : S128x128.Idx → EReal) y := by
  obtain ⟨-, -, e0, e1, -⟩ := idx_facts t
  rw [← V_main_arg1 m c]
  show V m c main_arg1 (((cfg0.win 1).blk t).view.emb y) = _
  have h0 : ((cfg0.win 1).blk t).view.emb y = y := by
    funext a; apply Fin.ext
    match a with
    | ⟨0, _⟩ => show win0_1.index t (0 : Fin 2) * 128 + 1 * (y 0).val = (y 0).val; omega
    | ⟨1, _⟩ => show win0_1.index t (1 : Fin 2) * 128 + 1 * (y 1).val = (y 1).val; omega
  rw [h0]

theorem blk2 (c : Dev nD) (t : Fin cfg0.N) (y : S1x128.Idx) :
    iblk m c 2 t y = (m ((c : Thread nD τ).loc main_arg2) : S1x128.Idx → EReal) y := by
  obtain ⟨-, -, -, -, e0, e1, -⟩ := idx_facts t
  rw [← V_main_arg2 m c]
  show V m c main_arg2 (((cfg0.win 2).blk t).view.emb y) = _
  have h0 : ((cfg0.win 2).blk t).view.emb y = y := by
    funext a; apply Fin.ext
    match a with
    | ⟨0, _⟩ => show win0_2.index t (0 : Fin 2) * 1 + 1 * (y 0).val = (y 0).val; omega
    | ⟨1, _⟩ => show win0_2.index t (1 : Fin 2) * 128 + 1 * (y 1).val = (y 1).val; omega
  rw [h0]

theorem blk3 (c : Dev nD) (t : Fin cfg0.N) (y : S128x128.Idx) :
    iblk m c 3 t y = (m ((c : Thread nD τ).loc main_arg3) : S128x128.Idx → EReal) y := by
  obtain ⟨-, -, -, -, -, -, e0, e1, -⟩ := idx_facts t
  rw [← V_main_arg3 m c]
  show V m c main_arg3 (((cfg0.win 3).blk t).view.emb y) = _
  have h0 : ((cfg0.win 3).blk t).view.emb y = y := by
    funext a; apply Fin.ext
    match a with
    | ⟨0, _⟩ => show win0_3.index t (0 : Fin 2) * 128 + 1 * (y 0).val = (y 0).val; omega
    | ⟨1, _⟩ => show win0_3.index t (1 : Fin 2) * 128 + 1 * (y 1).val = (y 1).val; omega
  rw [h0]

theorem blk4 (c : Dev nD) (t : Fin cfg0.N) (y : S1x128.Idx) :
    iblk m c 4 t y = (m ((c : Thread nD τ).loc main_arg4) : S1x128.Idx → EReal) y := by
  obtain ⟨-, -, -, -, -, -, -, -, e0, e1, -⟩ := idx_facts t
  rw [← V_main_arg4 m c]
  show V m c main_arg4 (((cfg0.win 4).blk t).view.emb y) = _
  have h0 : ((cfg0.win 4).blk t).view.emb y = y := by
    funext a; apply Fin.ext
    match a with
    | ⟨0, _⟩ => show win0_4.index t (0 : Fin 2) * 1 + 1 * (y 0).val = (y 0).val; omega
    | ⟨1, _⟩ => show win0_4.index t (1 : Fin 2) * 128 + 1 * (y 1).val = (y 1).val; omega
  rw [h0]

/-- The array-level function with the arrays the region finds. -/
abbrev GRm (c : Dev nD) : S262144x128.Idx → EReal :=
  GR (V m c main_call0_v0) (m ((c : Thread nD τ).loc main_arg1)) (m ((c : Thread nD τ).loc main_arg2))
    (m ((c : Thread nD τ).loc main_arg3)) (m ((c : Thread nD τ).loc main_arg4))

/-- Where the output block's entry (r, n) at point t sits in the array. -/
theorem emb5 (t : Fin cfg0.N) (r : Fin 256) (n : Fin 128) (b : Fin 262144) (hb : b.val = t.val * 256 + r.val) :
    ((cfg0.win 5).blk t).view.emb (ix2 r n) = ix2 b n := by
  obtain ⟨-, -, -, -, -, -, -, -, -, -, e0, e1⟩ := idx_facts t
  funext a; apply Fin.ext
  match a with
  | ⟨0, _⟩ => show win0_5.index t (0 : Fin 2) * 256 + 1 * r.val = b.val; omega
  | ⟨1, _⟩ => show win0_5.index t (1 : Fin 2) * 128 + 1 * n.val = n.val; omega

/-- What point t writes back is block t of the array-level function. -/
theorem flushed_eq (c : Dev nD) (t : Fin cfg0.N) :
    (dats m 0 c).flushed 5 t = ((cfg0.win 5).blk t).view.read (Elt Ideal) (GRm m c) := by
  show (cfg0.win 5).cut (grid0.coords t) ((dats m 0 c).after 5 t) = _
  rw [after0_5]
  unfold out0_5
  rw [View.canon_unit_zero hz]
  simp only [View.ld_unit_zero (S := S256x128) hz, View.ld_unit_zero (S := S128x128) hz, View.ld_unit_zero (S := S1x128) hz]
  refine pay_eq_of (iblk m c 0 t) (iblk m c 1 t) (iblk m c 2 t) (iblk m c 3 t) (iblk m c 4 t) _ fun r n => ?_
  have hN : cfg0.N = 1024 := N_0
  have ht : t.val < 1024 := hN ▸ t.isLt
  have hb : t.val * 256 + r.val < 262144 := by have := r.isLt; omega
  show GRm m c (((cfg0.win 5).blk t).view.emb (ix2 r n)) = _
  rw [emb5 t r n ⟨t.val * 256 + r.val, hb⟩ rfl]
  show gr _ _ _ _ _ ⟨t.val * 256 + r.val, hb⟩ n = _
  unfold gr
  refine congrArg₂ (· + ·) (Finset.sum_congr rfl fun k _ => ?_) (blk4 m c t _).symm
  refine congrArg₂ (· * ·) ?_ (blk3 m c t _).symm
  refine congrArg (max · 0) ?_
  refine congrArg₂ (· + ·) (Finset.sum_congr rfl fun f _ => ?_) (blk2 m c t _).symm
  exact congrArg₂ (· * ·) (blk0 m c t r f _ rfl).symm (blk1 m c t _).symm

/-- An index of the array is in point t's block iff each coordinate is in the block's range. -/
theorem mem_blk (t : Fin cfg0.N) (i : S262144x128.Idx) :
    i ∈ ((cfg0.win 5).blk t).view.set ↔ ∀ a : Fin 2, win0_5.index t a * S256x128.size a ≤ (i a).val ∧ (i a).val < win0_5.index t a * S256x128.size a + S256x128.size a := by
  show i ∈ ((View.whole main_call0_v1).slice (win0_5.rect t)).set ↔ _
  rw [View.set_slice_whole, Rect.mem_set_unit]
  exact Iff.rfl

/-- The blocks tile the array: row i sits in the block of point i / 256. -/
theorem cover (i : S262144x128.Idx) :
    ∃ t : Fin cfg0.N, (cfg0.win 5).flush t = true ∧ i ∈ ((cfg0.win 5).blk t).view.set := by
  have hi0 : (i 0).val < 262144 := (i 0).isLt
  have hi1 : (i 1).val < 128 := (i 1).isLt
  have hN : cfg0.N = 1024 := N_0
  have hlt : (i 0).val / 256 < cfg0.N := by rw [hN]; omega
  obtain ⟨-, -, -, -, -, -, -, -, -, -, e0, e1⟩ := idx_facts ⟨(i 0).val / 256, hlt⟩
  refine ⟨⟨(i 0).val / 256, hlt⟩, flush0_5 _, ?_⟩
  rw [mem_blk]
  intro a
  match a with
  | ⟨0, _⟩ =>
    show win0_5.index ⟨(i 0).val / 256, hlt⟩ (0 : Fin 2) * 256 ≤ (i 0).val ∧ (i 0).val < win0_5.index ⟨(i 0).val / 256, hlt⟩ (0 : Fin 2) * 256 + 256
    have e0' : win0_5.index ⟨(i 0).val / 256, hlt⟩ (0 : Fin 2) = (i 0).val / 256 := e0
    omega
  | ⟨1, _⟩ =>
    show win0_5.index ⟨(i 0).val / 256, hlt⟩ (1 : Fin 2) * 128 ≤ (i 1).val ∧ (i 1).val < win0_5.index ⟨(i 0).val / 256, hlt⟩ (1 : Fin 2) * 128 + 128
    omega

/-- The array after the run. -/
theorem final (c : Dev nD) : (dats m 0 c).arrAt 5 cfg0.N = GRm m c :=
  (dats m 0 c).arrAt_eq_of_cover 5 (GRm m c) (fun t _ => flushed_eq m c t) cover

/-! ## The host's slice after the region, and the result -/

/-- The result buffer is the first 100 columns of the array the kernel wrote. -/
theorem tail_eq (c : Dev nD) :
    (Pipeline.afterTail₀ cfgs (dats m) 0 (V0 m) [hostOps1] c main_v0 : S262144x100.Idx → EReal)
      = extractStridedSlice S262144x100 ![0, 0] (GRm m c) slices_S262144x128_S262144x100_0_0 := by
  unfold Pipeline.afterTail₀
  show StableHlo.after hostOps1 _ (Proc.devRef .tc main_v0) = _
  after_results
  exact congrArg (fun x => extractStridedSlice S262144x100 ![0, 0] x slices_S262144x128_S262144x100_0_0)
    ((Pipeline.withArrays_arr spec0 launch0.win.arr_inj c (V0 m c) (fun w => (dats m 0 c).arrAt w cfg0.N) 5).trans (final m c))

/-- Entry by entry the result is the network's output: the 79 padded columns add 0 · w = 0 to the first
    contraction, and the kept columns are the first 100. -/
theorem result_eq (c : Dev nD) :
    (Pipeline.afterTail₀ cfgs (dats m) 0 (V0 m) [hostOps1] c main_v0 : S262144x100.Idx → EReal)
      = Cert.Spec.G (m ((c : Thread nD τ).loc main_arg0)) (m ((c : Thread nD τ).loc main_arg1))
          (m ((c : Thread nD τ).loc main_arg2)) (m ((c : Thread nD τ).loc main_arg3)) (m ((c : Thread nD τ).loc main_arg4)) := by
  rw [tail_eq]
  funext i
  obtain ⟨b, n, rfl⟩ : ∃ (b : Fin 262144) (n : Fin 100), i = ix2 b n := ⟨i 0, i 1, eq_ix2 i⟩
  refine (extractStridedSlice_apply _ _ _ (ix2 b n) (ix2 b (Fin.castLE (by norm_num) n)) fun a => ?_).trans ?_
  · match a with
    | ⟨0, _⟩ => show b.val = 0 + b.val; omega
    | ⟨1, _⟩ => show n.val = 0 + n.val; omega
  show gr _ _ _ _ _ b (Fin.castLE _ n) = Cert.Spec.out _ _ _ _ _ b n
  unfold gr Cert.Spec.out Cert.Spec.hid
  refine congrArg (· + _) (Finset.sum_congr rfl fun k _ => ?_)
  refine congrArg (· * _) (congrArg (max · 0) (congrArg (· + _) ?_))
  refine Cert.LibSumBlocks.sum_padded (by norm_num) _ _ (fun f' kk hk => ?_) (fun kk hk => ?_)
  · rw [xpad_in m c b kk f' hk]
    have e : kk = Fin.castLE (by norm_num) f' := Fin.ext hk
    rw [e]
  · rw [xpad_out m c b kk hk, zero_mul]

/-- The run: the result at the network's output, the arguments unchanged. -/
theorem run : θ_run defs (onTc (τ := τ) (main (F := Ideal))) ⟨m, fun _ => 0, ρ⟩ (fun r => ∀ c : Dev nD,
      r.2.mem ((c.tc : Thread nD τ).loc main_v0)
        = Cert.Spec.G (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v0 (Pipeline.mem_restRefs_of main_v0 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.RefValue

end
-- ==== Proof.lean ====
/-
  Both programs compute the two-layer network

      y[b, n] = Σ_{k < 128} max (Σ_{f < 49} x[b,f] · W1[f,k] + b1[0,k]) 0 · W2[k,n] + b2[0,n],    n < 100,

  on the extended reals (Proof/Spec.lean). The packed program views x as 32768 × 392 (eight batch rows side by side),
  multiplies by the block-diagonal matrices kron(I₈, W1[:49, :]) and kron(I₂, W2[:, :100]), whose off-diagonal blocks
  are 0 · w = 0, and regroups the result; the reference pads x with zero columns and keeps the first 100 output
  columns. In each contraction the extra terms are products with 0, so both sums reduce to the network's
  (Proof/KernelResult.lean, Proof/RefValue.lean). No finiteness of the inputs is needed: 0 · w = 0 and x · 0 = 0 hold
  for every extended real, and sums are only regrouped.

  The three frames are the generated ones; the idealization rewrote nothing, so there is nothing to preserve.
-/
import proofs.«180049_g2000200537359479_pallasbulk_177_3_alg».proof.Defs
import proofs.«180049_g2000200537359479_pallasbulk_177_3_alg».proof.Proof.Gen.Kernel
import proofs.«180049_g2000200537359479_pallasbulk_177_3_alg».proof.Proof.Gen.Kernel.Skeleton
import proofs.«180049_g2000200537359479_pallasbulk_177_3_alg».proof.Proof.Gen.Kernel.Launch
import proofs.«180049_g2000200537359479_pallasbulk_177_3_alg».proof.Proof.Gen.Kernel.Points
import proofs.«180049_g2000200537359479_pallasbulk_177_3_alg».proof.Proof.Gen.Kernel.Frame
import proofs.«180049_g2000200537359479_pallasbulk_177_3_alg».proof.Proof.Gen.KernelIdeal
import proofs.«180049_g2000200537359479_pallasbulk_177_3_alg».proof.Proof.Gen.KernelIdeal.Skeleton
import proofs.«180049_g2000200537359479_pallasbulk_177_3_alg».proof.Proof.Gen.KernelIdeal.Launch
import proofs.«180049_g2000200537359479_pallasbulk_177_3_alg».proof.Proof.Gen.KernelIdeal.Points
import proofs.«180049_g2000200537359479_pallasbulk_177_3_alg».proof.Proof.Gen.KernelIdeal.Frame
import proofs.«180049_g2000200537359479_pallasbulk_177_3_alg».proof.Proof.Gen.ReferenceIdeal
import proofs.«180049_g2000200537359479_pallasbulk_177_3_alg».proof.Proof.Gen.ReferenceIdeal.Skeleton
import proofs.«180049_g2000200537359479_pallasbulk_177_3_alg».proof.Proof.Gen.ReferenceIdeal.Launch
import proofs.«180049_g2000200537359479_pallasbulk_177_3_alg».proof.Proof.Gen.ReferenceIdeal.Points
import proofs.«180049_g2000200537359479_pallasbulk_177_3_alg».proof.Proof.Gen.ReferenceIdeal.Frame
import proofs.«180049_g2000200537359479_pallasbulk_177_3_alg».proof.Proof.Gen.Pre_finite_inputs
import proofs.«180049_g2000200537359479_pallasbulk_177_3_alg».proof.Proof.KernelResult
import proofs.«180049_g2000200537359479_pallasbulk_177_3_alg».proof.Proof.RefValue
import Idealize.ShloMosaic.Adequacy
import Idealize.ShloMosaic.Init

noncomputable section

namespace Cert.Proof

open Idealize.ShloMosaic Idealize.SL.Sem Cert.Kernel

/-- From memories that agree on the arguments both idealized programs end with the network's output of those
    arguments in their result arrays, and the arguments unchanged. -/
theorem algebraic : Cert.algebraic_KernelIdeal_ReferenceIdeal := by
  intro m ρ m' ρ' _ hagree
  refine ⟨_, Cert.KernelResult.run m ρ, ?_⟩
  refine (θ_run Cert.ReferenceIdeal.defs _ _).mono (fun _ h c => ?_) (Cert.RefValue.run m' ρ')
  obtain ⟨h0, h1, h2, h3, h4, h5⟩ := h c
  obtain ⟨a0, a1, a2, a3, a4⟩ := hagree c
  refine ⟨?_, h1, h2, h3, h4, h5⟩
  rw [h0, a0, a1, a2, a3, a4]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => Cert.ReferenceIdeal.Gen.frame m ρ,
  trivial,
  algebraic⟩

end Cert.Proof

end
